-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S4x512x2 : Shape := ⟨3, ![4, 512, 2]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel

variable [Facts]

def fn {F : FTy → Type} [FloatOps F] (main_arg0 : FVec F S4x256x256 .f32) (main_arg1 : IVec S4x512x2 32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  main_v3
-- ==== Kernel.lean ====
abbrev S4x256x256 : Shape := ⟨3, ![4, 256, 256]⟩
abbrev S4x512x2 : Shape := ⟨3, ![4, 512, 2]⟩
abbrev S4x32x8x256 : Shape := ⟨4, ![4, 32, 8, 256]⟩
abbrev S4x512x1 : Shape := ⟨3, ![4, 512, 1]⟩
abbrev S4x512 : Shape := ⟨2, ![4, 512]⟩
abbrev S4x1x512 : Shape := ⟨3, ![4, 1, 512]⟩
abbrev S4x1x1 : Shape := ⟨3, ![4, 1, 1]⟩
abbrev S1x1x8x256 : Shape := ⟨4, ![1, 1, 8, 256]⟩
abbrev S1x1x512 : Shape := ⟨3, ![1, 1, 512]⟩
abbrev S1x1x1 : Shape := ⟨3, ![1, 1, 1]⟩
abbrev S1x1 : Shape := ⟨2, ![1, 1]⟩
abbrev S1x512 : Shape := ⟨2, ![1, 512]⟩
abbrev S8x256 : Shape := ⟨2, ![8, 256]⟩
abbrev S8x256x1 : Shape := ⟨3, ![8, 256, 1]⟩
abbrev S8x256x512 : Shape := ⟨3, ![8, 256, 512]⟩
abbrev S8x1 : Shape := ⟨2, ![8, 1]⟩
abbrev S8x1x1 : Shape := ⟨3, ![8, 1, 1]⟩
abbrev S8x512 : Shape := ⟨2, ![8, 512]⟩
abbrev S8x1x512 : Shape := ⟨3, ![8, 1, 512]⟩
abbrev S4 : Shape := ⟨1, ![4]⟩
abbrev S_ : Shape := ⟨0, ![]⟩

abbrev nBuf : Space → Nat
  | .hbm => 28
  | .vmem => 13
  | .smem => 0
  | _ => 0

abbrev bufTy : (tb : Table) → Fin (tcTables nBuf tb) → BufTy
  | .hbm, ⟨0, _⟩ => ⟨S4x256x256, .f32⟩
  | .hbm, ⟨1, _⟩ => ⟨S4x512x2, .i32⟩
  | .hbm, ⟨2, _⟩ => ⟨S4x32x8x256, .f32⟩
  | .hbm, ⟨3, _⟩ => ⟨S4x512x2, .f32⟩
  | .hbm, ⟨4, _⟩ => ⟨S4x512x1, .f32⟩
  | .hbm, ⟨5, _⟩ => ⟨S4x512, .f32⟩
  | .hbm, ⟨6, _⟩ => ⟨S4x1x512, .f32⟩
  | .hbm, ⟨7, _⟩ => ⟨S4x512x1, .f32⟩
  | .hbm, ⟨8, _⟩ => ⟨S4x512, .f32⟩
  | .hbm, ⟨9, _⟩ => ⟨S4x1x512, .f32⟩
  | .hbm, ⟨10, _⟩ => ⟨S4x1x1, .f32⟩
  | .hbm, ⟨11, _⟩ => ⟨S4x1x512, .f32⟩
  | .hbm, ⟨12, _⟩ => ⟨S4, .f32⟩
  | .hbm, ⟨13, _⟩ => ⟨S4x512, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x1x8x256, .f32⟩
  | .local _ .vmem, ⟨1, _⟩ => ⟨S1x1x8x256, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x1, .f32⟩
  | .local _ .vmem, ⟨7, _⟩ => ⟨S1x1x1, .f32⟩
  | .local _ .vmem, ⟨8, _⟩ => ⟨S1x1x512, .f32⟩
  | .local _ .vmem, ⟨9, _⟩ => ⟨S1x1x512, .f32⟩
  | .local _ .vmem, ⟨10, _⟩ => ⟨S1x1, .f32⟩
  | .local _ .vmem, ⟨11, _⟩ => ⟨S1x1, .f32⟩
  | .local _ .vmem, ⟨12, _⟩ => ⟨S1x512, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x256x256_S4x32x8x256 : S4x256x256.ShapeCasts S4x32x8x256
  slices_S4x512x2_S4x512x1_0_0_0 : S4x512x2.Slices ![0, 0, 0] S4x512x1
  shapeCasts_S4x512x1_S4x512 : S4x512x1.ShapeCasts S4x512
  bcast_S4x512_S4x1x512_0_2 : S4x512.BroadcastsInDim S4x1x512 (![0, 2] : Fin 2 → Fin S4x1x512.rank)
  slices_S4x512x2_S4x512x1_0_0_1 : S4x512x2.Slices ![0, 0, 1] S4x512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S8x256_d0_w32 : S8x256.Iotas .tc 32 [0]
  iota_S8x256_d1_w32 : S8x256.Iotas .tc 32 [1]
  shapeCasts_S8x256_S8x256x1 : S8x256.ShapeCasts S8x256x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  broadcasts_S8x256x1_S8x256x512 : S8x256x1.Broadcasts S8x256x512
  broadcasts_S1x1x512_S8x256x512 : S1x1x512.Broadcasts S8x256x512
  inb_S1x1x8x256_S1x1x8x256_0_0_0_0 : ∀ a, (![0, 0, 0, 0] : Fin 4 → Nat) a + S1x1x8x256.size a ≤ S1x1x8x256.size a
  h_S1x1x8x256 : 0 < S1x1x8x256.numel
  shapeCasts_S1x1x8x256_S8x256 : S1x1x8x256.ShapeCasts S8x256
  reduces_S8x256x512_S8x256 : S8x256x512.Reduces [2] S8x256
  reduces_S8x256x1_S8x1 : S8x256x1.Reduces [1] S8x1
  shapeCasts_S8x1_S8x1x1 : S8x1.ShapeCasts S8x1x1
  reduces_S8x1x1_S1x1 : S8x1x1.Reduces [0] S1x1
  reduces_S8x256x512_S8x512 : S8x256x512.Reduces [1] S8x512
  shapeCasts_S8x512_S8x1x512 : S8x512.ShapeCasts S8x1x512
  reduces_S8x1x512_S1x512 : S8x1x512.Reduces [0] S1x512
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x1x1_S4 : S4x1x1.ShapeCasts S4
  shapeCasts_S4x1x512_S4x512 : S4x1x512.ShapeCasts S4x512
  reducesTo_S4x512_S4_d1 : S4x512.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x256.size a ≤ S4x32x8x256.size a
  hwx0_0 : ∀ i : grid0.Coords, EltTy.bits .f32 = 32 ∨ (Rect.block (s := S4x32x8x256) S1x1x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S4x1x512.size a
  hwx0_1 : ∀ i : grid0.Coords, EltTy.bits .f32 = 32 ∨ (Rect.block (s := S4x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x512.size a
  hwx0_2 : ∀ i : grid0.Coords, EltTy.bits .f32 = 32 ∨ (Rect.block (s := S4x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S4x1x512.size a
  hwx0_4 : ∀ i : grid0.Coords, EltTy.bits .f32 = 32 ∨ (Rect.block (s := S4x1x512) S1x1x512.size (cc0_transform_4 i) (hinb0_4 i)).WholeWords (EltTy.packing .f32)

variable [Facts₀]

abbrev win0_0 : Pipeline.Window sig grid0 :=
  Pipeline.Window.ofSpec (Memref.whole main_v0) S1x1x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S4x512x2 : Shape := ⟨3, ![4, 512, 2]⟩
abbrev S256 : Shape := ⟨1, ![256]⟩
abbrev S256x256 : Shape := ⟨2, ![256, 256]⟩
abbrev S256x256x1 : Shape := ⟨3, ![256, 256, 1]⟩
abbrev S256x256x2 : Shape := ⟨3, ![256, 256, 2]⟩
abbrev S65536x2 : Shape := ⟨2, ![65536, 2]⟩
abbrev S_ : Shape := ⟨0, ![]⟩
abbrev S65536 : Shape := ⟨1, ![65536]⟩
abbrev S1x65536x1 : Shape := ⟨3, ![1, 65536, 1]⟩
abbrev S4x512 : Shape := ⟨2, ![4, 512]⟩
abbrev S4x1x512 : Shape := ⟨3, ![4, 1, 512]⟩
abbrev S4x512x65536 : Shape := ⟨3, ![4, 512, 65536]⟩
abbrev S4x65536x512 : Shape := ⟨3, ![4, 65536, 512]⟩
abbrev S4x65536 : Shape := ⟨2, ![4, 65536]⟩
abbrev S4 : Shape := ⟨1, ![4]⟩
abbrev S4x65536x1 : Shape := ⟨3, ![4, 65536, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x512x2, .i32⟩
  | .hbm, ⟨2, _⟩ => ⟨S256, .i32⟩
  | .hbm, ⟨3, _⟩ => ⟨S256, .i32⟩
  | .hbm, ⟨4, _⟩ => ⟨S256x256, .i32⟩
  | .hbm, ⟨5, _⟩ => ⟨S256x256, .i32⟩
  | .hbm, ⟨6, _⟩ => ⟨S256x256x1, .i32⟩
  | .hbm, ⟨7, _⟩ => ⟨S256x256x1, .i32⟩
  | .hbm, ⟨8, _⟩ => ⟨S256x256x2, .i32⟩
  | .hbm, ⟨9, _⟩ => ⟨S65536x2, .i32⟩
  | .hbm, ⟨10, _⟩ => ⟨S65536x2, .f32⟩
  | .hbm, ⟨11, _⟩ => ⟨S4x512x2, .f32⟩
  | .hbm, ⟨12, _⟩ => ⟨S65536x2, .f32⟩
  | .hbm, ⟨13, _⟩ => ⟨S_, .f32⟩
  | .hbm, ⟨14, _⟩ => ⟨S65536, .f32⟩
  | .hbm, ⟨15, _⟩ => ⟨S1x65536x1, .f32⟩
  | .hbm, ⟨16, _⟩ => ⟨S4x512x2, .f32⟩
  | .hbm, ⟨17, _⟩ => ⟨S_, .f32⟩
  | .hbm, ⟨18, _⟩ => ⟨S4x512, .f32⟩
  | .hbm, ⟨19, _⟩ => ⟨S4x1x512, .f32⟩
  | .hbm, ⟨20, _⟩ => ⟨S4x512x65536, .f32⟩
  | .hbm, ⟨21, _⟩ => ⟨S4x65536x512, .f32⟩
  | .hbm, ⟨22, _⟩ => ⟨S4x65536x512, .f32⟩
  | .hbm, ⟨23, _⟩ => ⟨S4x65536x512, .f32⟩
  | .hbm, ⟨24, _⟩ => ⟨S4x65536x512, .f32⟩
  | .hbm, ⟨25, _⟩ => ⟨S_, .f32⟩
  | .hbm, ⟨26, _⟩ => ⟨S4x65536x512, .f32⟩
  | .hbm, ⟨27, _⟩ => ⟨S4x65536x512, .f32⟩
  | .hbm, ⟨28, _⟩ => ⟨S4x65536x512, .f32⟩
  | .hbm, ⟨29, _⟩ => ⟨S_, .f32⟩
  | .hbm, ⟨30, _⟩ => ⟨S4x65536x512, .f32⟩
  | .hbm, ⟨31, _⟩ => ⟨S4x65536x512, .f32⟩
  | .hbm, ⟨32, _⟩ => ⟨S4x65536x512, .f32⟩
  | .hbm, ⟨33, _⟩ => ⟨S4x65536, .f32⟩
  | .hbm, ⟨34, _⟩ => ⟨S_, .f32⟩
  | .hbm, ⟨35, _⟩ => ⟨S4, .f32⟩
  | .hbm, ⟨36, _⟩ => ⟨S_, .f32⟩
  | .hbm, ⟨37, _⟩ => ⟨S4x65536, .f32⟩
  | .hbm, ⟨38, _⟩ => ⟨S4x65536, .f32⟩
  | .hbm, ⟨39, _⟩ => ⟨S_, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4x65536, .f32⟩
  | .hbm, ⟨47, _⟩ => ⟨S4x65536, .f32⟩
  | .hbm, ⟨48, _⟩ => ⟨S4x65536x1, .f32⟩
  | .hbm, ⟨49, _⟩ => ⟨S_, .f32⟩
  | .hbm, ⟨50, _⟩ => ⟨S4x65536x1, .f32⟩
  | .hbm, ⟨51, _⟩ => ⟨S4x65536x1, .f32⟩
  | .hbm, ⟨52, _⟩ => ⟨S4x65536x1, .f32⟩
  | .hbm, ⟨53, _⟩ => ⟨S4x65536x512, .f32⟩
  | .hbm, ⟨54, _⟩ => ⟨S4x65536x512, .f32⟩
  | .hbm, ⟨55, _⟩ => ⟨S4x65536x512, .f32⟩
  | .hbm, ⟨56, _⟩ => ⟨S4x65536x512, .f32⟩
  | .hbm, ⟨57, _⟩ => ⟨S_, .f32⟩
  | .hbm, ⟨58, _⟩ => ⟨S4x512, .f32⟩
  | .hbm, ⟨59, _⟩ => ⟨S_, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_cst_13 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩
abbrev main_cst_15 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  bcast_S256_S256x256_0 : S256.BroadcastsInDim S256x256 (![0] : Fin 1 → Fin S256x256.rank)
  bcast_S256_S256x256_1 : S256.BroadcastsInDim S256x256 (![1] : Fin 1 → Fin S256x256.rank)
  bcast_S256x256_S256x256x1_0_1 : S256x256.BroadcastsInDim S256x256x1 (![0, 1] : Fin 2 → Fin S256x256x1.rank)
  concatenates_S256x256x1_S256x256x1_S256x256x2_d2 : Shape.Concatenates [S256x256x1, S256x256x1] S256x256x2 2
  shapeCasts_S256x256x2_S65536x2 : S256x256x2.ShapeCasts S65536x2
  reducesTo_S65536x2_S65536_d1 : S65536x2.ReducesTo [1] S65536
  h_S_ : 0 < S_.numel
  bcast_S65536_S1x65536x1_1 : S65536.BroadcastsInDim S1x65536x1 (![1] : Fin 1 → Fin S1x65536x1.rank)
  reducesTo_S4x512x2_S4x512_d2 : S4x512x2.ReducesTo [2] S4x512
  bcast_S4x512_S4x1x512_0_2 : S4x512.BroadcastsInDim S4x1x512 (![0, 2] : Fin 2 → Fin S4x1x512.rank)
  transposes_S4x512x65536_S4x65536x512_0_2_1 : S4x512x65536.Transposes [0, 2, 1] S4x65536x512
  bcast_S1x65536x1_S4x65536x512_0_1_2 : S1x65536x1.BroadcastsInDim S4x65536x512 (![0, 1, 2] : Fin 3 → Fin S4x65536x512.rank)
  bcast_S4x1x512_S4x65536x512_0_1_2 : S4x1x512.BroadcastsInDim S4x65536x512 (![0, 1, 2] : Fin 3 → Fin S4x65536x512.rank)
  bcast_S_S4x65536x512 : S_.BroadcastsInDim S4x65536x512 (![] : Fin 0 → Fin S4x65536x512.rank)
  shapeCasts_S4x256x256_S4x65536 : S4x256x256.ShapeCasts S4x65536
  reducesTo_S4x65536_S4_d1 : S4x65536.ReducesTo [1] S4
  reducesTo_S4x65536x512_S4x65536_d2 : S4x65536x512.ReducesTo [2] S4x65536
  bcast_S_S4 : S_.BroadcastsInDim S4 (![] : Fin 0 → Fin S4.rank)
  bcast_S_S4x65536 : S_.BroadcastsInDim S4x65536 (![] : Fin 0 → Fin S4x65536.rank)
  bcast_S4x65536_S4x65536x1_0_1 : S4x65536.BroadcastsInDim S4x65536x1 (![0, 1] : Fin 2 → Fin S4x65536x1.rank)
  bcast_S_S4x65536x1 : S_.BroadcastsInDim S4x65536x1 (![] : Fin 0 → Fin S4x65536x1.rank)
  bcast_S4x65536x1_S4x65536x512_0_1_2 : S4x65536x1.BroadcastsInDim S4x65536x512 (![0, 1, 2] : Fin 3 → Fin S4x65536x512.rank)
  reducesTo_S4x65536x512_S4x512_d1 : S4x65536x512.ReducesTo [1] S4x512
  reducesTo_S4x512_S4_d1 : S4x512.ReducesTo [1] S4
  reducesTo_S4_S_d0 : S4.ReducesTo [0] S_
  dot_S4x512x2_S65536x2_S4x512x65536_2_1_01_0_n_n_wf : DotDims.WF S4x512x2 S65536x2 S4x512x65536 [2] [1] [0, 1] [0] [] []

variable [Facts₀]

def dot_S4x512x2_S65536x2_S4x512x65536_2_1_01_0_n_n : DotDims S4x512x2 S65536x2 S4x512x65536 where
  lhsContracting := [2]
  rhsContracting := [1]
  lhsNonContracting := [0, 1]
  rhsNonContracting := [0]
  lhsBatch := []
  rhsBatch := []
  wf := dot_S4x512x2_S65536x2_S4x512x65536_2_1_01_0_n_n_wf

class Facts : Prop extends Facts₀ where

variable [Facts]
-- ==== Proof.Pieces.lean ====
/-
  What one grid point leaves behind, as terms of the body's arithmetic.

  The body keeps three running quantities between grid points — a running weighted sum, a running
  total weight, a running minimum per point — and after updating them writes the quotient of the first two
  and the running minimum to its two output blocks. At the first tile of an image the three are first set
  to 0, 0 and +∞ and then updated; at the other tiles they are updated from what the tile before left.
  Each lemma below says which arithmetic term one of the five buffers ends holding, for each of the two
  cases, as a function of the three input blocks and (in the second case) of the three carried values.
-/
import proofs.«167800_j19816979104533_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load through a whole buffer reads the payload of the store through the whole buffer that was made
    last, whatever was stored before it. -/
theorem readCov_last {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## A later tile of an image: the carried values are updated -/

/-- The running weighted sum after a later tile: the carried sum plus the tile's sum of weight times nearest distance. -/
theorem sumW_B (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i)
    (x0 : Vec F S1x1x8x256 .f32) (x1 : Vec F S1x1x512 .f32) (x2 : Vec F S1x1x512 .f32) (xs0 : Vec F S1x1 .f32) (xs1 : Vec F S1x1 .f32) (xs2 : Vec F S1x512 .f32) :
    sout0_B_0 c i arg2 harg2 arg3 harg3 arg4 harg4 arg5 harg5 arg6 harg6 arg7 harg7 arg8 harg8 arg9 harg9 hc0 x0 x1 x2 xs0 xs1 xs2 = k0_pay9 (k0_pay7 x0) (k0_pay8 i x1 x2) xs0 := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 xs0 xs1 xs2)]
  unfold kernelRun0_B
  dsimp only
  sl_unfold_words
  rw [View.canon_cons_unit_zero (S := S1x1) hz2]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The running total weight after a later tile: the carried total plus the tile's sum of weights. -/
theorem sumP_B (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i)
    (x0 : Vec F S1x1x8x256 .f32) (x1 : Vec F S1x1x512 .f32) (x2 : Vec F S1x1x512 .f32) (xs0 : Vec F S1x1 .f32) (xs1 : Vec F S1x1 .f32) (xs2 : Vec F S1x512 .f32) :
    sout0_B_1 c i arg2 harg2 arg3 harg3 arg4 harg4 arg5 harg5 arg6 harg6 arg7 harg7 arg8 harg8 arg9 harg9 hc0 x0 x1 x2 xs0 xs1 xs2 = k0_pay10 (k0_pay7 x0) xs1 := by
  unfold sout0_B_1
  rw [View.read_writes_eq_canon _ _ _ (scover0_B_1 c i arg2 harg2 arg3 harg3 arg4 harg4 arg5 harg5 arg6 harg6 arg7 harg7 arg8 harg8 arg9 harg9 hc0 x0 x1 x2 xs0 xs1 xs2)]
  unfold kernelRun0_B
  dsimp only
  sl_unfold_words
  rw [View.canon_cons_unit_zero (S := S1x1) hz2]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The running minimum after a later tile: the lesser of the carried minimum and the tile's minimum of the weighted distance. -/
theorem minW_B (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i)
    (x0 : Vec F S1x1x8x256 .f32) (x1 : Vec F S1x1x512 .f32) (x2 : Vec F S1x1x512 .f32) (xs0 : Vec F S1x1 .f32) (xs1 : Vec F S1x1 .f32) (xs2 : Vec F S1x512 .f32) :
    sout0_B_2 c i arg2 harg2 arg3 harg3 arg4 harg4 arg5 harg5 arg6 harg6 arg7 harg7 arg8 harg8 arg9 harg9 hc0 x0 x1 x2 xs0 xs1 xs2 = k0_pay11 (k0_pay6 i x1 x2) (k0_pay7 x0) xs2 := by
  unfold sout0_B_2
  rw [View.read_writes_eq_canon _ _ _ (scover0_B_2 c i arg2 harg2 arg3 harg3 arg4 harg4 arg5 harg5 arg6 harg6 arg7 harg7 arg8 harg8 arg9 harg9 hc0 x0 x1 x2 xs0 xs1 xs2)]
  unfold kernelRun0_B
  dsimp only
  sl_unfold_words
  rw [View.canon_cons_unit_zero (S := S1x512) hz2]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The first output block after a later tile: the updated weighted sum over the updated total weight plus ε. -/
theorem quot_B (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i)
    (x0 : Vec F S1x1x8x256 .f32) (x1 : Vec F S1x1x512 .f32) (x2 : Vec F S1x1x512 .f32) (xs0 : Vec F S1x1 .f32) (xs1 : Vec F S1x1 .f32) (xs2 : Vec F S1x512 .f32) :
    out0_B_3 c i arg2 harg2 arg3 harg3 arg4 harg4 arg5 harg5 arg6 harg6 arg7 harg7 arg8 harg8 arg9 harg9 hc0 x0 x1 x2 xs0 xs1 xs2 = k0_pay1 (k0_pay9 (k0_pay7 x0) (k0_pay8 i x1 x2) xs0) (k0_pay10 (k0_pay7 x0) xs1) := by
  unfold out0_B_3
  rw [View.read_writes_eq_canon _ _ _ (cover0_B_3 c i arg2 harg2 arg3 harg3 arg4 harg4 arg5 harg5 arg6 harg6 arg7 harg7 arg8 harg8 arg9 harg9 hc0 x0 x1 x2 xs0 xs1 xs2)]
  unfold kernelRun0_B
  dsimp only
  sl_unfold_words
  rw [View.canon_cons_unit_zero (S := S1x1x1) hz3]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The second output block after a later tile: the updated running minimum. -/
theorem mins_B (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : ¬cond0_0 i)
    (x0 : Vec F S1x1x8x256 .f32) (x1 : Vec F S1x1x512 .f32) (x2 : Vec F S1x1x512 .f32) (xs0 : Vec F S1x1 .f32) (xs1 : Vec F S1x1 .f32) (xs2 : Vec F S1x512 .f32) :
    out0_B_4 c i arg2 harg2 arg3 harg3 arg4 harg4 arg5 harg5 arg6 harg6 arg7 harg7 arg8 harg8 arg9 harg9 hc0 x0 x1 x2 xs0 xs1 xs2 = k0_pay2 (k0_pay11 (k0_pay6 i x1 x2) (k0_pay7 x0) xs2) := by
  unfold out0_B_4
  rw [View.read_writes_eq_canon _ _ _ (cover0_B_4 c i arg2 harg2 arg3 harg3 arg4 harg4 arg5 harg5 arg6 harg6 arg7 harg7 arg8 harg8 arg9 harg9 hc0 x0 x1 x2 xs0 xs1 xs2)]
  unfold kernelRun0_B
  dsimp only
  sl_unfold_words
  rw [View.canon_cons_unit_zero (S := S1x1x512) hz3]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-! ## The first tile of an image: the carried values start from 0, 0 and +∞ -/

/-- The running weighted sum after a first tile: zero plus the tile's sum. -/
theorem sumW_A (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i)
    (x0 : Vec F S1x1x8x256 .f32) (x1 : Vec F S1x1x512 .f32) (x2 : Vec F S1x1x512 .f32) :
    sout0_A_0 c i arg2 harg2 arg3 harg3 arg4 harg4 arg5 harg5 arg6 harg6 arg7 harg7 arg8 harg8 arg9 harg9 hc0 x0 x1 x2 = k0_pay9 (k0_pay7 x0) (k0_pay8 i x1 x2) k0_pay3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1) hz2]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The running total weight after a first tile: zero plus the tile's sum of weights. -/
theorem sumP_A (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i)
    (x0 : Vec F S1x1x8x256 .f32) (x1 : Vec F S1x1x512 .f32) (x2 : Vec F S1x1x512 .f32) :
    sout0_A_1 c i arg2 harg2 arg3 harg3 arg4 harg4 arg5 harg5 arg6 harg6 arg7 harg7 arg8 harg8 arg9 harg9 hc0 x0 x1 x2 = k0_pay10 (k0_pay7 x0) k0_pay4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1) hz2]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The running minimum after a first tile: the lesser of +∞ and the tile's minimum. -/
theorem minW_A (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i)
    (x0 : Vec F S1x1x8x256 .f32) (x1 : Vec F S1x1x512 .f32) (x2 : Vec F S1x1x512 .f32) :
    sout0_A_2 c i arg2 harg2 arg3 harg3 arg4 harg4 arg5 harg5 arg6 harg6 arg7 harg7 arg8 harg8 arg9 harg9 hc0 x0 x1 x2 = k0_pay11 (k0_pay6 i x1 x2) (k0_pay7 x0) k0_pay5 := by
  unfold sout0_A_2
  rw [View.read_writes_eq_canon _ _ _ (scover0_A_2 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x512) hz2]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The first output block after a first tile. -/
theorem quot_A (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i)
    (x0 : Vec F S1x1x8x256 .f32) (x1 : Vec F S1x1x512 .f32) (x2 : Vec F S1x1x512 .f32) :
    out0_A_3 c i arg2 harg2 arg3 harg3 arg4 harg4 arg5 harg5 arg6 harg6 arg7 harg7 arg8 harg8 arg9 harg9 hc0 x0 x1 x2 = k0_pay1 (k0_pay9 (k0_pay7 x0) (k0_pay8 i x1 x2) k0_pay3) (k0_pay10 (k0_pay7 x0) k0_pay4) := by
  unfold out0_A_3
  rw [View.read_writes_eq_canon _ _ _ (cover0_A_3 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1x1) hz3]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

/-- The second output block after a first tile. -/
theorem mins_A (c : Dev nD) (i : grid0.Coords) (arg2 : Memref sig .tc .vmem S1x1x8x256 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x512 .f32) (harg9 : arg9.IsWhole) (hc0 : cond0_0 i)
    (x0 : Vec F S1x1x8x256 .f32) (x1 : Vec F S1x1x512 .f32) (x2 : Vec F S1x1x512 .f32) :
    out0_A_4 c i arg2 harg2 arg3 harg3 arg4 harg4 arg5 harg5 arg6 harg6 arg7 harg7 arg8 harg8 arg9 harg9 hc0 x0 x1 x2 = k0_pay2 (k0_pay11 (k0_pay6 i x1 x2) (k0_pay7 x0) k0_pay5) := by
  unfold out0_A_4
  rw [View.read_writes_eq_canon _ _ _ (cover0_A_4 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1x512) hz3]
  simp only [readCov_last (S := S1x1) _ hz2, readCov_last (S := S1x512) _ hz2, View.readAt_eq_ld,
    harg2.read_unread, harg3.read_unread, harg4.read_unread, harg7.read_unread, harg8.read_unread, harg9.read_unread,
    View.ld_unit_zero (S := S1x1) hz2, View.ld_unit_zero (S := S1x512) hz2, View.ld_unit_zero (S := S1x1x512) hz3,
    View.ld_unit_zero (S := S1x1x8x256) hz4]

end Cert.KernelIdeal.Pieces

end
-- ==== Proof.Spec.lean ====
/-
  The common value of the two programs, stated once over the argument arrays.

  The input is a probability map `p b h w` over 4 images of 256 × 256 pixels and, per image, 512 integer
  points `(gx b g, gy b g)`. With `dist b h w g` the Euclidean distance from pixel `(h, w)` to point `g`:

    SW b   = ∑ over pixels of  p · (the distance to the nearest point)
    SP b   = ∑ over pixels of  p
    MN b g = the least, over pixels, of  M + p · (dist − M)        (M the far-distance constant)

  and the result is  mean over b of SW b / (SP b + ε)  +  mean over b of (mean over g of MN b g).
  One program walks the pixels tile by tile (32 tiles of 8 rows, a running sum and a running minimum);
  the other takes each sum and minimum at once over the 65536 pixels of an image in row-major order,
  with the squared distance expanded as |x|² + |y|² − 2⟨x, y⟩ clamped at zero, and the weighted distance
  written (1 − p) · M + p · dist. Both arrangements are stated here; Proof/Algebra.lean shows all three
  are one value.
-/
import Idealize.ShloMosaic.PureOps.Ideal
import Idealize.ShloMosaic.PureOps.Ideal.Laws
import Idealize.ShloMosaic.Lib.ValueIdx

noncomputable section

namespace Cert.Spec

open Idealize.ShloMosaic

/-- The far distance, √(256² + 256²) rounded to single precision: the same word in both programs. -/
abbrev M : EReal := Ideal.ofBits .f32 0x43B504F3#32
/-- The guard added to the total weight before dividing: the same word in both programs. -/
abbrev eps : EReal := Ideal.ofBits .f32 0x358637BD#32
/-- The number of points per image, 512, and the number of images, 4, as the programs spell them. -/
abbrev c512 : EReal := Ideal.ofBits .f32 0x44000000#32
abbrev c4 : EReal := Ideal.ofBits .f32 0x40800000#32

/-! ## The words that are read as numbers -/

theorem top_eq : Ideal.ofBits .f32 0x7F800000#32 = (⊤ : EReal) := by
  simp [Ideal.ofBits, Ideal.ieee]

theorem zero_eq : Ideal.ofBits .f32 0x00000000#32 = (0 : EReal) := Ideal.ofBits_zero_f32

theorem one_eq : Ideal.ofBits .f32 0x3F800000#32 = ((1 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The far distance is a real number. -/
theorem M_real : ∃ r : ℝ, M = (r : EReal) := by
  have h : M = ((11863283 * (2 : ℝ) ^ (-15 : ℤ) : ℝ) : EReal) := by
    simp [M, Ideal.ofBits, Ideal.ieee, -EReal.coe_mul]
  exact ⟨_, h⟩

section

variable (p : Fin 4 → Fin 256 → Fin 256 → EReal) (gx gy : Fin 4 → Fin 512 → ℝ)

/-- A pixel coordinate as a real number. -/
def coord (k : Fin 256) : ℝ := (k.val : ℝ)

/-- The distance from pixel `(h, w)` to point `g` of image `b`, as the square root of the sum of the squared
    coordinate differences. -/
def dist (b : Fin 4) (h w : Fin 256) (g : Fin 512) : EReal :=
  Ideal.sqrt ((((coord h : ℝ) : EReal) - ((gx b g : ℝ) : EReal)) * (((coord h : ℝ) : EReal) - ((gx b g : ℝ) : EReal))
    + (((coord w : ℝ) : EReal) - ((gy b g : ℝ) : EReal)) * (((coord w : ℝ) : EReal) - ((gy b g : ℝ) : EReal)))

/-- The distance from a pixel to the nearest point. -/
def minDist (b : Fin 4) (h w : Fin 256) : EReal :=
  (Finset.univ : Finset (Fin 512)).fold min ⊤ (fun g => dist gx gy b h w g)

/-- The weighted distance: far where `p` is 0, the distance where `p` is 1. -/
def wdist (b : Fin 4) (h w : Fin 256) (g : Fin 512) : EReal :=
  M + p b h w * (dist gx gy b h w g - M)

/-! ## The value, pixel by pixel -/

def SW (b : Fin 4) : EReal := ∑ h : Fin 256, ∑ w : Fin 256, p b h w * minDist gx gy b h w
def SP (b : Fin 4) : EReal := ∑ h : Fin 256, ∑ w : Fin 256, p b h w
def MN (b : Fin 4) (g : Fin 512) : EReal :=
  (Finset.univ : Finset (Fin 256)).fold min ⊤ (fun h =>
    (Finset.univ : Finset (Fin 256)).fold min ⊤ (fun w => wdist p gx gy b h w g))

/-- The result from the three per-image quantities: the mean over the images of `sw / (sp + ε)` plus the
    mean over the images of the mean over the points of `mn` (each mean a sum from zero, then a quotient). -/
def result (sw sp : Fin 4 → EReal) (mn : Fin 4 → Fin 512 → EReal) : EReal :=
  Ideal.div (0 + ∑ b : Fin 4, Ideal.div (sw b) (sp b + eps)) c4
    + Ideal.div (0 + ∑ b : Fin 4, Ideal.div (0 + ∑ g : Fin 512, mn b g) c512) c4

/-! ## The tiled arrangement: 32 tiles of 8 rows, accumulated in order -/

/-- Row `r` of tile `i`. -/
def hrow (i : Fin 32) (r : Fin 8) : Fin 256 := ⟨8 * i.val + r.val, by omega⟩

def tileSW (b : Fin 4) (i : Fin 32) : EReal :=
  ∑ r : Fin 8, ∑ c : Fin 256, p b (hrow i r) c * minDist gx gy b (hrow i r) c
def tileSP (b : Fin 4) (i : Fin 32) : EReal :=
  ∑ r : Fin 8, ∑ c : Fin 256, p b (hrow i r) c
def tileMN (b : Fin 4) (i : Fin 32) (g : Fin 512) : EReal :=
  (Finset.univ : Finset (Fin 8)).fold min ⊤ (fun r =>
    (Finset.univ : Finset (Fin 256)).fold min ⊤ (fun c => wdist p gx gy b (hrow i r) c g))

/-- The running sums and the running minimum after tile `k`. -/
def accSW (b : Fin 4) : (k : ℕ) → k < 32 → EReal
  | 0, h => tileSW p gx gy b ⟨0, h⟩
  | k + 1, h => accSW b k (Nat.lt_of_succ_lt h) + tileSW p gx gy b ⟨k + 1, h⟩
def accSP (b : Fin 4) : (k : ℕ) → k < 32 → EReal
  | 0, h => tileSP p b ⟨0, h⟩
  | k + 1, h => accSP b k (Nat.lt_of_succ_lt h) + tileSP p b ⟨k + 1, h⟩
def accMN (b : Fin 4) : (k : ℕ) → k < 32 → Fin 512 → EReal
  | 0, h => fun g => tileMN p gx gy b ⟨0, h⟩ g
  | k + 1, h => fun g => min (accMN b k (Nat.lt_of_succ_lt h) g) (tileMN p gx gy b ⟨k + 1, h⟩ g)

/-! ## The flat arrangement: pixel `n` of an image is row `n / 256`, column `n % 256` -/

def hOf (n : Fin 65536) : Fin 256 := ⟨n.val / 256, by omega⟩
def wOf (n : Fin 65536) : Fin 256 := ⟨n.val % 256, by omega⟩

/-- The distance with the square expanded, |x|² + |y|² − 2⟨y, x⟩, clamped at zero before the root. -/
def distR (b : Fin 4) (n : Fin 65536) (g : Fin 512) : EReal :=
  Ideal.sqrt (max
    (((((coord (hOf n) : ℝ) : EReal) * ((coord (hOf n) : ℝ) : EReal) + ((coord (wOf n) : ℝ) : EReal) * ((coord (wOf n) : ℝ) : EReal))
        + (((gx b g : ℝ) : EReal) * ((gx b g : ℝ) : EReal) + ((gy b g : ℝ) : EReal) * ((gy b g : ℝ) : EReal)))
      - ((2 : ℝ) : EReal) * (((gx b g : ℝ) : EReal) * ((coord (hOf n) : ℝ) : EReal) + ((gy b g : ℝ) : EReal) * ((coord (wOf n) : ℝ) : EReal)))
    0)

def minDistR (b : Fin 4) (n : Fin 65536) : EReal :=
  (Finset.univ : Finset (Fin 512)).fold min ⊤ (fun g => distR gx gy b n g)

def wdistR (b : Fin 4) (n : Fin 65536) (g : Fin 512) : EReal :=
  (((1 : ℝ) : EReal) - p b (hOf n) (wOf n)) * M + p b (hOf n) (wOf n) * distR gx gy b n g

def swR (b : Fin 4) : EReal := ∑ n : Fin 65536, p b (hOf n) (wOf n) * minDistR gx gy b n
def spR (b : Fin 4) : EReal := ∑ n : Fin 65536, p b (hOf n) (wOf n)
def mnR (b : Fin 4) (g : Fin 512) : EReal :=
  (Finset.univ : Finset (Fin 65536)).fold min ⊤ (fun n => wdistR p gx gy b n g)

end

/-! ## The argument arrays read as the functions above -/

/-- The probability map: entry `(b, h, w)` of the first argument. -/
def pOf (a0 : (⟨3, ![4, 256, 256]⟩ : Shape).Idx → EReal) : Fin 4 → Fin 256 → Fin 256 → EReal :=
  fun b h w => a0 (ValueIdx.ix3 b h w)

/-- The points' first and second coordinates: entries `(b, g, 0)` and `(b, g, 1)` of the second argument,
    signed integers read as real numbers. -/
def gxOf (a1 : (⟨3, ![4, 512, 2]⟩ : Shape).Idx → BitVec 32) : Fin 4 → Fin 512 → ℝ :=
  fun b g => ((a1 (ValueIdx.ix3 b g (0 : Fin 2))).toInt : ℝ)
def gyOf (a1 : (⟨3, ![4, 512, 2]⟩ : Shape).Idx → BitVec 32) : Fin 4 → Fin 512 → ℝ :=
  fun b g => ((a1 (ValueIdx.ix3 b g (1 : Fin 2))).toInt : ℝ)

end Cert.Spec

end
-- ==== Proof.Tile.lean ====
/-
  One tile's arithmetic, read entry by entry at the exact instance.

  A tile is 8 rows of 256 pixels of one image. The body numbers its pixels `2048·k + 256·r + c` (tile `k`,
  row `r`, column `c`), takes the pixel's row as that number shifted right by 8 and its column as the number's
  low 8 bits, and from these, the tile's block `x0` of the probability map and the image's point coordinates
  `x1`, `x2` forms the distances, the nearest distance, the weighted distance, and their sums and minima
  over the tile. This module says what each of those terms is at an index: first the integer arithmetic of
  the pixel number, then the re-laid pieces (casts between shapes that differ by unit axes, broadcasts along
  an axis), then the sums and minima along one axis, and last the body's terms themselves.
-/
import proofs.«167800_j19816979104533_2_alg».proof.Proof.Spec
import proofs.«167800_j19816979104533_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Tile

open Cert.KernelIdeal Cert.KernelIdeal.Gen Idealize.ShloMosaic Idealize.ShloMosaic.ValueIdx

/-! ## The pixel number, its row and its column -/

/-- The pixel number of column `c` of row `r` of tile `k`, as the body adds it up in 32-bit words. -/
theorem pixel_word (k r c : ℕ) (hk : k < 32) (hr : r < 8) (hc : c < 256) :
    IntOp.addi (IntOp.addi (Scalar.muli (BitVec.ofNat 32 k) 2048#32) (IntOp.muli (BitVec.ofNat 32 r) 256#32)) (BitVec.ofNat 32 c)
      = BitVec.ofNat 32 (k * 2048 + r * 256 + c) := by
  unfold IntOp.addi IntOp.muli Scalar.muli IntOp.muli
  apply BitVec.eq_of_toNat_eq
  simp only [BitVec.toNat_add, BitVec.toNat_mul, BitVec.toNat_ofNat]
  omega

/-- A pixel number below 65536 shifted right by 8, read as a signed integer, is its quotient by 256. -/
theorem shift_row (n : ℕ) (hn : n < 65536) :
    (IntOp.shrsi .vector (BitVec.ofNat 32 n) 8#32).toInt = ((n / 256 : ℕ) : ℤ) := by
  unfold IntOp.shrsi
  rw [if_pos (by decide)]
  show ((BitVec.ofNat 32 n).sshiftRight 8).toInt = _
  rw [BitVec.toInt_sshiftRight]
  have h1 : (BitVec.ofNat 32 n).toInt = (n : ℤ) := by
    rw [BitVec.toInt_eq_toNat_of_lt (by simp only [BitVec.toNat_ofNat]; omega), BitVec.toNat_ofNat]
    congr 1; omega
  rw [h1, Int.shiftRight_eq_div_pow]
  norm_cast

/-- A pixel number below 65536 masked with 255, read as a signed integer, is its remainder by 256. -/
theorem mask_col (n : ℕ) (hn : n < 65536) :
    (IntOp.andi (BitVec.ofNat 32 n) 255#32).toInt = ((n % 256 : ℕ) : ℤ) := by
  unfold IntOp.andi
  have h2 : (BitVec.ofNat 32 n &&& 255#32) = BitVec.ofNat 32 (n % 256) := by
    apply BitVec.eq_of_toNat_eq
    rw [BitVec.toNat_and, BitVec.toNat_ofNat, BitVec.toNat_ofNat, BitVec.toNat_ofNat]
    have : (255 : ℕ) % 2 ^ 32 = 2 ^ 8 - 1 := by norm_num
    rw [this, Nat.and_two_pow_sub_one_eq_mod]
    omega
  rw [h2, BitVec.toInt_eq_toNat_of_lt (by simp only [BitVec.toNat_ofNat]; omega), BitVec.toNat_ofNat]
  congr 1; omega

/-! ## Re-laid pieces read at an index -/

section Layout
variable {α : Type}

/-- [8,256] viewed [8,256,1]: entry (r, c, 0) is entry (r, c). -/
theorem cast_col (v : S8x256.Idx → α) (h : S8x256.ShapeCasts S8x256x1) (r : Fin 8) (c : Fin 256) :
    shapeCast S8x256x1 v h (ix3 r c (0 : Fin 1)) = v (ix2 r c) :=
  shapeCast_apply v h _ _ (by rw [Shape.rowMajor_val_two, Shape.rowMajor_val_three]; show r.val * 256 + c.val = (r.val * 256 + c.val) * 1 + 0; omega)

/-- [1,1,8,256] viewed [8,256]: entry (r, c) is entry (0, 0, r, c). -/
theorem cast_block (v : S1x1x8x256.Idx → α) (h : S1x1x8x256.ShapeCasts S8x256) (r : Fin 8) (c : Fin 256) :
    shapeCast S8x256 v h (ix2 r c) = v (ix4 (0 : Fin 1) (0 : Fin 1) r c) :=
  shapeCast_apply v h _ _ (by rw [Shape.rowMajor_val_two, Shape.rowMajor_val_four]; show ((0 * 1 + 0) * 8 + r.val) * 256 + c.val = r.val * 256 + c.val; omega)

/-- [8,1] viewed [8,1,1]. -/
theorem cast_rows (v : S8x1.Idx → α) (h : S8x1.ShapeCasts S8x1x1) (r : Fin 8) :
    shapeCast S8x1x1 v h (ix3 r (0 : Fin 1) (0 : Fin 1)) = v (ix2 r (0 : Fin 1)) :=
  shapeCast_apply v h _ _ (by rw [Shape.rowMajor_val_two, Shape.rowMajor_val_three]; show r.val * 1 + 0 = (r.val * 1 + 0) * 1 + 0; omega)

/-- [8,512] viewed [8,1,512]. -/
theorem cast_rows_pts (v : S8x512.Idx → α) (h : S8x512.ShapeCasts S8x1x512) (r : Fin 8) (g : Fin 512) :
    shapeCast S8x1x512 v h (ix3 r (0 : Fin 1) g) = v (ix2 r g) :=
  shapeCast_apply v h _ _ (by rw [Shape.rowMajor_val_two, Shape.rowMajor_val_three]; show r.val * 512 + g.val = (r.val * 1 + 0) * 512 + g.val; omega)

/-- [1,1] viewed [1,1,1]. -/
theorem cast_one (v : S1x1.Idx → α) (h : S1x1.ShapeCasts S1x1x1) :
    shapeCast S1x1x1 v h (ix3 (0 : Fin 1) (0 : Fin 1) (0 : Fin 1)) = v (ix2 (0 : Fin 1) (0 : Fin 1)) :=
  shapeCast_apply v h _ _ (by rw [Shape.rowMajor_val_two, Shape.rowMajor_val_three]; rfl)

/-- [1,512] viewed [1,1,512]. -/
theorem cast_pts (v : S1x512.Idx → α) (h : S1x512.ShapeCasts S1x1x512) (g : Fin 512) :
    shapeCast S1x1x512 v h (ix3 (0 : Fin 1) (0 : Fin 1) g) = v (ix2 (0 : Fin 1) g) :=
  shapeCast_apply v h _ _ (by rw [Shape.rowMajor_val_two, Shape.rowMajor_val_three]; show 0 * 512 + g.val = (0 * 1 + 0) * 512 + g.val; omega)

/-- [1,1,512] viewed [1,512]. -/
theorem cast_pts' (v : S1x1x512.Idx → α) (h : S1x1x512.ShapeCasts S1x512) (g : Fin 512) :
    shapeCast S1x512 v h (ix2 (0 : Fin 1) g) = v (ix3 (0 : Fin 1) (0 : Fin 1) g) :=
  shapeCast_apply v h _ _ (by rw [Shape.rowMajor_val_two, Shape.rowMajor_val_three]; show (0 * 1 + 0) * 512 + g.val = 0 * 512 + g.val; omega)

/-- A per-pixel value [8,256,1] spread along the points axis: entry (r, c, g) is entry (r, c, 0). -/
theorem spread_pixel (v : S8x256x1.Idx → α) (h : S8x256x1.Broadcasts S8x256x512) (r : Fin 8) (c : Fin 256) (g : Fin 512) :
    broadcastTo S8x256x512 v h (ix3 r c g) = v (ix3 r c (0 : Fin 1)) :=
  broadcastTo_apply v h _ _ (fun a => match a with
    | ⟨0, _⟩ => by show r.val = if (8 : ℕ) = 1 then 0 else r.val; rw [if_neg (by decide)]
    | ⟨1, _⟩ => by show c.val = if (256 : ℕ) = 1 then 0 else c.val; rw [if_neg (by decide)]
    | ⟨2, _⟩ => by show (0 : ℕ) = if (1 : ℕ) = 1 then 0 else g.val; rw [if_pos rfl])

/-- A per-point value [1,1,512] spread over the pixels: entry (r, c, g) is entry (0, 0, g). -/
theorem spread_point (v : S1x1x512.Idx → α) (h : S1x1x512.Broadcasts S8x256x512) (r : Fin 8) (c : Fin 256) (g : Fin 512) :
    broadcastTo S8x256x512 v h (ix3 r c g) = v (ix3 (0 : Fin 1) (0 : Fin 1) g) :=
  broadcastTo_apply v h _ _ (fun a => match a with
    | ⟨0, _⟩ => by show (0 : ℕ) = if (1 : ℕ) = 1 then 0 else r.val; rw [if_pos rfl]
    | ⟨1, _⟩ => by show (0 : ℕ) = if (1 : ℕ) = 1 then 0 else c.val; rw [if_pos rfl]
    | ⟨2, _⟩ => by show g.val = if (512 : ℕ) = 1 then 0 else g.val; rw [if_neg (by decide)])

end Layout

/-! ## Sums and minima along one axis -/

/-- A minimum along one axis, at the exact instance, is the fold of `min` from the starting word's value over that
    axis's coordinates. -/
theorem minimum_along {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Cert.KernelIdeal.Tile

end
-- ==== Proof.Payload.lean ====
/-
  One tile's arithmetic, continued: the sums and minima the body takes along one axis, and then each of
  the body's terms read at an index — the distance of a pixel to a point, the nearest distance, the update
  of the running weighted sum, of the running total weight and of the running minimum, and the two terms
  written to the output blocks.
-/
import proofs.«167800_j19816979104533_2_alg».proof.Proof.Tile

set_option maxRecDepth 16384

noncomputable section

namespace Cert.KernelIdeal.Tile

open Cert.KernelIdeal Cert.KernelIdeal.Gen Idealize.ShloMosaic Idealize.ShloMosaic.ValueIdx

/-! ## Sums and minima along one axis, at explicit coordinates -/

/-- The minimum over the 512 points, at pixel (r, c). -/
theorem min_over_points (v : FVec Ideal S8x256x512 .f32) (hφ : FKind.Formats .f32)
    (hacc : (0x7F800000#32 : BitVec 32) = FKind.minimumf.neutral .f32 hφ) (r : Fin 8) (c : Fin 256) :
    multiReduction .minimumf [2] S8x256 v 0x7F800000#32 reduces_S8x256x512_S8x256 hφ hacc (ix2 r c)
      = (Finset.univ : Finset (Fin 512)).fold min (Ideal.ofBits .f32 0x7F800000#32) (fun g => v (ix3 r c g)) :=
  (minimum_along v 0x7F800000#32 reduces_S8x256x512_S8x256 hφ hacc (ix2 r c)).trans
    (congrArg (fun f => (Finset.univ : Finset (Fin 512)).fold min (Ideal.ofBits .f32 0x7F800000#32) f)
      (funext fun g => congrArg v (funext fun a => match a with | ⟨0, _⟩ => rfl | ⟨1, _⟩ => rfl | ⟨2, _⟩ => rfl)))

/-- The minimum over the 256 columns, at row r and point g. -/
theorem min_over_cols (v : FVec Ideal S8x256x512 .f32) (hφ : FKind.Formats .f32)
    (hacc : (0x7F800000#32 : BitVec 32) = FKind.minimumf.neutral .f32 hφ) (r : Fin 8) (g : Fin 512) :
    multiReduction .minimumf [1] S8x512 v 0x7F800000#32 reduces_S8x256x512_S8x512 hφ hacc (ix2 r g)
      = (Finset.univ : Finset (Fin 256)).fold min (Ideal.ofBits .f32 0x7F800000#32) (fun c => v (ix3 r c g)) :=
  (minimum_along v 0x7F800000#32 reduces_S8x256x512_S8x512 hφ hacc (ix2 r g)).trans
    (congrArg (fun f => (Finset.univ : Finset (Fin 256)).fold min (Ideal.ofBits .f32 0x7F800000#32) f)
      (funext fun c => congrArg v (funext fun a => match a with | ⟨0, _⟩ => rfl | ⟨1, _⟩ => rfl | ⟨2, _⟩ => rfl)))

/-- The minimum over the 8 rows, at point g. -/
theorem min_over_rows (v : FVec Ideal S8x1x512 .f32) (hφ : FKind.Formats .f32)
    (hacc : (0x7F800000#32 : BitVec 32) = FKind.minimumf.neutral .f32 hφ) (g : Fin 512) :
    multiReduction .minimumf [0] S1x512 v 0x7F800000#32 reduces_S8x1x512_S1x512 hφ hacc (ix2 (0 : Fin 1) g)
      = (Finset.univ : Finset (Fin 8)).fold min (Ideal.ofBits .f32 0x7F800000#32) (fun r => v (ix3 r (0 : Fin 1) g)) :=
  (minimum_along v 0x7F800000#32 reduces_S8x1x512_S1x512 hφ hacc (ix2 (0 : Fin 1) g)).trans
    (congrArg (fun f => (Finset.univ : Finset (Fin 8)).fold min (Ideal.ofBits .f32 0x7F800000#32) f)
      (funext fun r => congrArg v (funext fun a => match a with | ⟨0, _⟩ => rfl | ⟨1, _⟩ => rfl | ⟨2, _⟩ => rfl)))

/-- The sum over the 256 columns, at row r. -/
theorem sum_over_cols (v : FVec Ideal S8x256x1 .f32) (hφ : FKind.Formats .f32)
    (hacc : (0x00000000#32 : BitVec 32) = FKind.add.neutral .f32 hφ) (r : Fin 8) :
    multiReduction .add [1] S8x1 v 0x00000000#32 reduces_S8x256x1_S8x1 hφ hacc (ix2 r (0 : Fin 1))
      = ∑ c : Fin 256, v (ix3 r c (0 : Fin 1)) :=
  (Ideal.multiReduction_add_single v 0x00000000#32 reduces_S8x256x1_S8x1 hφ hacc (ix2 r (0 : Fin 1))).trans
    (Finset.sum_congr rfl fun c _ => congrArg v (funext fun a => match a with | ⟨0, _⟩ => rfl | ⟨1, _⟩ => rfl | ⟨2, _⟩ => rfl))

/-- The sum over the 8 rows. -/
theorem sum_over_rows (v : FVec Ideal S8x1x1 .f32) (hφ : FKind.Formats .f32)
    (hacc : (0x00000000#32 : BitVec 32) = FKind.add.neutral .f32 hφ) :
    multiReduction .add [0] S1x1 v 0x00000000#32 reduces_S8x1x1_S1x1 hφ hacc (ix2 (0 : Fin 1) (0 : Fin 1))
      = ∑ r : Fin 8, v (ix3 r (0 : Fin 1) (0 : Fin 1)) :=
  (Ideal.multiReduction_add_single v 0x00000000#32 reduces_S8x1x1_S1x1 hφ hacc (ix2 (0 : Fin 1) (0 : Fin 1))).trans
    (Finset.sum_congr rfl fun r _ => congrArg v (funext fun a => match a with | ⟨0, _⟩ => rfl | ⟨1, _⟩ => rfl | ⟨2, _⟩ => rfl))

/-! ## The pointwise operations at an index (each by definition) -/

theorem sqrt_apply {s : Shape} (a : FVec Ideal s .f32) (j : s.Idx) : sqrt a j = Ideal.sqrt (a j) := rfl
theorem shrsi_apply {s : Shape} (x y : IVec s 32) (j : s.Idx) : shrsi x y j = IntOp.shrsi .vector (x j) (y j) := rfl
theorem andi_apply {s : Shape} (x y : IVec s 32) (j : s.Idx) : andi x y j = IntOp.andi (x j) (y j) := rfl
theorem addi_apply {s : Shape} (x y : IVec s 32) (j : s.Idx) : addi x y j = IntOp.addi (x j) (y j) := rfl
theorem muli_apply {s : Shape} (x y : IVec s 32) (j : s.Idx) : muli x y j = IntOp.muli (x j) (y j) := rfl
theorem sitofp_ideal (w : BitVec 32) : FloatOps.sitofp (F := Ideal) .f32 w = ((w.toInt : ℝ) : EReal) := rfl

/-! ## The body's terms -/

/-- The tile's block of the probability map, per pixel. -/
theorem weight_apply (x0 : Vec Ideal S1x1x8x256 .f32) (r : Fin 8) (c : Fin 256) :
    k0_pay7 (F := Ideal) x0 (ix3 r c (0 : Fin 1)) = x0 (ix4 (0 : Fin 1) (0 : Fin 1) r c) := by
  unfold k0_pay7
  exact (cast_col _ _ r c).trans (cast_block _ _ r c)

/-- The distance from pixel (r, c) of tile `k` — row `8k + r`, column `c` of the image — to point `g`. -/
theorem dist_apply (i : grid0.Coords) (k : ℕ) (hk : (i 1).val = k) (hk32 : k < 32) (x1 x2 : Vec Ideal S1x1x512 .f32)
    (r : Fin 8) (c : Fin 256) (g : Fin 512) :
    k0_pay6 (F := Ideal) i x1 x2 (ix3 r c g)
      = Ideal.sqrt (((((8 * k + r.val : ℕ) : ℝ) : EReal) - x1 (ix3 (0 : Fin 1) (0 : Fin 1) g)) * ((((8 * k + r.val : ℕ) : ℝ) : EReal) - x1 (ix3 (0 : Fin 1) (0 : Fin 1) g))
          + ((((c.val : ℕ) : ℝ) : EReal) - x2 (ix3 (0 : Fin 1) (0 : Fin 1) g)) * ((((c.val : ℕ) : ℝ) : EReal) - x2 (ix3 (0 : Fin 1) (0 : Fin 1) g))) := by
  subst hk
  unfold k0_pay6
  dsimp only
  simp only [sqrt_apply, addf_apply, mulf_apply, subf_apply, spread_pixel, spread_point, cast_col, cast_pts, cast_pts',
    sitofp_apply, sitofp_ideal, shrsi_apply, andi_apply, addi_apply, muli_apply, broadcast_apply, iota_single_apply]
  have hi0 : iota .tc S8x256 32 [0] iota_S8x256_d0_w32 (ix2 r c) = BitVec.ofNat 32 r.val :=
    iota_single_apply _ _ _ _ _ _
  have hi1 : iota .tc S8x256 32 [1] iota_S8x256_d1_w32 (ix2 r c) = BitVec.ofNat 32 c.val :=
    iota_single_apply _ _ _ _ _ _
  have hr := r.isLt
  have hc := c.isLt
  have e1 : ((i 1).val * 2048 + r.val * 256 + c.val) / 256 = 8 * (i 1).val + r.val := by omega
  have e2 : ((i 1).val * 2048 + r.val * 256 + c.val) % 256 = c.val := by omega
  rw [hi0, hi1, pixel_word _ _ _ hk32 hr hc, shift_row _ (by omega), mask_col _ (by omega), e1, e2]
  simp only [Int.cast_natCast]

/-- The nearest distance at pixel (r, c): the least distance over the 512 points. -/
theorem nearest_apply (i : grid0.Coords) (x1 x2 : Vec Ideal S1x1x512 .f32) (r : Fin 8) (c : Fin 256) :
    k0_pay8 (F := Ideal) i x1 x2 (ix3 r c (0 : Fin 1))
      = (Finset.univ : Finset (Fin 512)).fold min (Ideal.ofBits .f32 0x7F800000#32)
          (fun g => k0_pay6 (F := Ideal) i x1 x2 (ix3 r c g)) := by
  unfold k0_pay8
  exact (cast_col _ _ r c).trans (min_over_points _ _ _ r c)

/-- The running weighted sum's update: the value read plus the tile's sum, rows outside, columns inside. -/
theorem sumW_apply (v37 v39 : FVec Ideal S8x256x1 .f32) (v56 : Vec Ideal S1x1 .f32) :
    k0_pay9 (F := Ideal) v37 v39 v56 (ix2 (0 : Fin 1) (0 : Fin 1))
      = v56 (ix2 (0 : Fin 1) (0 : Fin 1))
        + ∑ r : Fin 8, ∑ c : Fin 256, v37 (ix3 r c (0 : Fin 1)) * v39 (ix3 r c (0 : Fin 1)) := by
  unfold k0_pay9
  simp only [shapeCast_self, addf_apply]
  refine congrArg (v56 (ix2 (0 : Fin 1) (0 : Fin 1)) + ·) ?_
  refine (sum_over_rows _ _ _).trans (Finset.sum_congr rfl fun r _ => ?_)
  refine (cast_rows _ _ r).trans ?_
  exact sum_over_cols _ _ _ r

/-- The running total weight's update. -/
theorem sumP_apply (v37 : FVec Ideal S8x256x1 .f32) (v61 : Vec Ideal S1x1 .f32) :
    k0_pay10 (F := Ideal) v37 v61 (ix2 (0 : Fin 1) (0 : Fin 1))
      = v61 (ix2 (0 : Fin 1) (0 : Fin 1)) + ∑ r : Fin 8, ∑ c : Fin 256, v37 (ix3 r c (0 : Fin 1)) := by
  unfold k0_pay10
  simp only [shapeCast_self, addf_apply]
  refine congrArg (v61 (ix2 (0 : Fin 1) (0 : Fin 1)) + ·) ?_
  refine (sum_over_rows _ _ _).trans (Finset.sum_congr rfl fun r _ => ?_)
  refine (cast_rows _ _ r).trans ?_
  exact sum_over_cols _ _ _ r

/-- The running minimum's update at point g: the lesser of the value read and the tile's least weighted distance. -/
theorem minW_apply (v34 : FVec Ideal S8x256x512 .f32) (v37 : FVec Ideal S8x256x1 .f32) (v66 : Vec Ideal S1x512 .f32) (g : Fin 512) :
    k0_pay11 (F := Ideal) v34 v37 v66 (ix2 (0 : Fin 1) g)
      = min (v66 (ix2 (0 : Fin 1) g))
          ((Finset.univ : Finset (Fin 8)).fold min (Ideal.ofBits .f32 0x7F800000#32) (fun r =>
            (Finset.univ : Finset (Fin 256)).fold min (Ideal.ofBits .f32 0x7F800000#32) (fun c =>
              Ideal.ofBits .f32 0x43B504F3#32
                + v37 (ix3 r c (0 : Fin 1)) * (v34 (ix3 r c g) - Ideal.ofBits .f32 0x43B504F3#32)))) := by
  unfold k0_pay11
  simp only [shapeCast_self, minimumf_apply]
  refine congrArg (min (v66 (ix2 (0 : Fin 1) g))) ?_
  refine (min_over_rows _ _ _ g).trans ?_
  refine congrArg (fun f => (Finset.univ : Finset (Fin 8)).fold min (Ideal.ofBits .f32 0x7F800000#32) f) (funext fun r => ?_)
  refine (cast_rows_pts _ _ r g).trans ?_
  refine (min_over_cols _ _ _ r g).trans ?_
  refine congrArg (fun f => (Finset.univ : Finset (Fin 256)).fold min (Ideal.ofBits .f32 0x7F800000#32) f) (funext fun c => ?_)
  show Ideal.ofBits .f32 0x43B504F3#32
      + broadcastTo S8x256x512 v37 broadcasts_S8x256x1_S8x256x512 (ix3 r c g) * (v34 (ix3 r c g) - Ideal.ofBits .f32 0x43B504F3#32) = _
  rw [spread_pixel]

/-- The first output block's term: the weighted sum over the total weight plus ε. -/
theorem quot_apply (v71 v72 : Vec Ideal S1x1 .f32) :
    k0_pay1 (F := Ideal) v71 v72 (ix3 (0 : Fin 1) (0 : Fin 1) (0 : Fin 1))
      = Ideal.div (v71 (ix2 (0 : Fin 1) (0 : Fin 1))) (v72 (ix2 (0 : Fin 1) (0 : Fin 1)) + Ideal.ofBits .f32 0x358637BD#32) := by
  unfold k0_pay1
  simp only [cast_one, divf_apply, addf_apply, broadcast_apply, Ideal.ofBits_def]

/-- The second output block's term: the running minimum itself. -/
theorem mins_apply (v79 : Vec Ideal S1x512 .f32) (g : Fin 512) :
    k0_pay2 (F := Ideal) v79 (ix3 (0 : Fin 1) (0 : Fin 1) g) = v79 (ix2 (0 : Fin 1) g) := by
  unfold k0_pay2
  exact cast_pts _ _ g

/-- The starting values: 0, 0 and the +∞ word. -/
theorem start_sumW : k0_pay3 (F := Ideal) (ix2 (0 : Fin 1) (0 : Fin 1)) = Ideal.ofBits .f32 0x00000000#32 := by
  unfold k0_pay3; simp only [shapeCast_self, broadcast_apply]; rfl
theorem start_sumP : k0_pay4 (F := Ideal) (ix2 (0 : Fin 1) (0 : Fin 1)) = Ideal.ofBits .f32 0x00000000#32 := by
  unfold k0_pay4; simp only [shapeCast_self, broadcast_apply]; rfl
theorem start_minW (g : Fin 512) : k0_pay5 (F := Ideal) (ix2 (0 : Fin 1) g) = Ideal.ofBits .f32 0x7F800000#32 := by
  unfold k0_pay5; simp only [shapeCast_self, broadcast_apply]; rfl

end Cert.KernelIdeal.Tile

end
-- ==== Proof.TileValue.lean ====
/-
  One tile's three quantities are the specification's.

  When the tile's block of the probability map is rows `8k … 8k+7` of image `b` and the two coordinate blocks
  are image `b`'s points, the tile's sum of weight times nearest distance, its sum of weights and, per point,
  its least weighted distance are `tileSW`, `tileSP` and `tileMN` of the specification at tile `k` of image `b`.
-/
import proofs.«167800_j19816979104533_2_alg».proof.Proof.Payload

set_option maxRecDepth 16384

noncomputable section

namespace Cert.KernelIdeal.Tile

open Cert.KernelIdeal Cert.KernelIdeal.Gen Idealize.ShloMosaic Idealize.ShloMosaic.ValueIdx

section
variable (P : Fin 4 → Fin 256 → Fin 256 → EReal) (GX GY : Fin 4 → Fin 512 → ℝ) (b : Fin 4) (k : ℕ) (hk : k < 32)
  (i : grid0.Coords) (hi : (i 1).val = k)
  (x0 : Vec Ideal S1x1x8x256 .f32) (x1 x2 : Vec Ideal S1x1x512 .f32)
  (h0 : ∀ (r : Fin 8) (c : Fin 256), x0 (ix4 (0 : Fin 1) (0 : Fin 1) r c) = P b (Cert.Spec.hrow ⟨k, hk⟩ r) c)
  (h1 : ∀ g : Fin 512, x1 (ix3 (0 : Fin 1) (0 : Fin 1) g) = ((GX b g : ℝ) : EReal))
  (h2 : ∀ g : Fin 512, x2 (ix3 (0 : Fin 1) (0 : Fin 1) g) = ((GY b g : ℝ) : EReal))
include hi h1 h2

/-- The body's distance at pixel (r, c) of the tile and point g is the specification's distance from pixel
    (8k + r, c) to point g. -/
theorem tile_dist (r : Fin 8) (c : Fin 256) (g : Fin 512) :
    k0_pay6 (F := Ideal) i x1 x2 (ix3 r c g) = Cert.Spec.dist GX GY b (Cert.Spec.hrow ⟨k, hk⟩ r) c g := by
  rw [dist_apply i k hi hk x1 x2 r c g, h1, h2]
  rfl

/-- The body's nearest distance is the specification's. -/
theorem tile_nearest (r : Fin 8) (c : Fin 256) :
    k0_pay8 (F := Ideal) i x1 x2 (ix3 r c (0 : Fin 1)) = Cert.Spec.minDist GX GY b (Cert.Spec.hrow ⟨k, hk⟩ r) c := by
  rw [nearest_apply, Cert.Spec.top_eq]
  unfold Cert.Spec.minDist
  exact congrArg (fun f => (Finset.univ : Finset (Fin 512)).fold min ⊤ f)
    (funext fun g => tile_dist GX GY b k hk i hi x1 x2 h1 h2 r c g)

include h0

/-- The tile's sum of weight times nearest distance. -/
theorem tile_sumW :
    (∑ r : Fin 8, ∑ c : Fin 256, k0_pay7 (F := Ideal) x0 (ix3 r c (0 : Fin 1)) * k0_pay8 (F := Ideal) i x1 x2 (ix3 r c (0 : Fin 1)))
      = Cert.Spec.tileSW P GX GY b ⟨k, hk⟩ := by
  unfold Cert.Spec.tileSW
  refine Finset.sum_congr rfl fun r _ => Finset.sum_congr rfl fun c _ => ?_
  rw [weight_apply, h0, tile_nearest GX GY b k hk i hi x1 x2 h1 h2 r c]

/-- The tile's least weighted distance to point g. -/
theorem tile_minW (g : Fin 512) :
    (Finset.univ : Finset (Fin 8)).fold min (Ideal.ofBits .f32 0x7F800000#32) (fun r =>
        (Finset.univ : Finset (Fin 256)).fold min (Ideal.ofBits .f32 0x7F800000#32) (fun c =>
          Ideal.ofBits .f32 0x43B504F3#32
            + k0_pay7 (F := Ideal) x0 (ix3 r c (0 : Fin 1)) * (k0_pay6 (F := Ideal) i x1 x2 (ix3 r c g) - Ideal.ofBits .f32 0x43B504F3#32)))
      = Cert.Spec.tileMN P GX GY b ⟨k, hk⟩ g := by
  rw [Cert.Spec.top_eq]
  unfold Cert.Spec.tileMN
  refine congrArg (fun f => (Finset.univ : Finset (Fin 8)).fold min ⊤ f) (funext fun r => ?_)
  refine congrArg (fun f => (Finset.univ : Finset (Fin 256)).fold min ⊤ f) (funext fun c => ?_)
  rw [weight_apply, h0, tile_dist GX GY b k hk i hi x1 x2 h1 h2 r c g]
  rfl

omit hi h1 h2 in
/-- The tile's sum of weights. -/
theorem tile_sumP :
    (∑ r : Fin 8, ∑ c : Fin 256, k0_pay7 (F := Ideal) x0 (ix3 r c (0 : Fin 1))) = Cert.Spec.tileSP P b ⟨k, hk⟩ := by
  unfold Cert.Spec.tileSP
  refine Finset.sum_congr rfl fun r _ => Finset.sum_congr rfl fun c _ => ?_
  rw [weight_apply, h0]

end

end Cert.KernelIdeal.Tile

end
-- ==== Proof.AccStep.lean ====
/-
  The running quantities one tile at a time: at the first tile of an image each is the tile's own value,
  at a later tile it is the value after the tile before combined with the tile's — stated for a tile number
  given as a natural number with a proof that it is, or is not, zero, which is how a grid point knows it.
-/
import proofs.«167800_j19816979104533_2_alg».proof.Proof.Spec

noncomputable section

namespace Cert.Spec

variable (p : Fin 4 → Fin 256 → Fin 256 → EReal) (gx gy : Fin 4 → Fin 512 → ℝ) (b : Fin 4)

theorem accSW_first (k : ℕ) (h : k < 32) (hk : k = 0) : accSW p gx gy b k h = tileSW p gx gy b ⟨k, h⟩ := by
  subst hk; rfl
theorem accSW_next (k : ℕ) (h : k < 32) (hk : k ≠ 0) :
    accSW p gx gy b k h = accSW p gx gy b (k - 1) (by omega) + tileSW p gx gy b ⟨k, h⟩ := by
  cases k with
  | zero => exact absurd rfl hk
  | succ k => rfl

theorem accSP_first (k : ℕ) (h : k < 32) (hk : k = 0) : accSP p b k h = tileSP p b ⟨k, h⟩ := by
  subst hk; rfl
theorem accSP_next (k : ℕ) (h : k < 32) (hk : k ≠ 0) :
    accSP p b k h = accSP p b (k - 1) (by omega) + tileSP p b ⟨k, h⟩ := by
  cases k with
  | zero => exact absurd rfl hk
  | succ k => rfl

theorem accMN_first (k : ℕ) (h : k < 32) (hk : k = 0) (g : Fin 512) : accMN p gx gy b k h g = tileMN p gx gy b ⟨k, h⟩ g := by
  subst hk; rfl
theorem accMN_next (k : ℕ) (h : k < 32) (hk : k ≠ 0) (g : Fin 512) :
    accMN p gx gy b k h g = min (accMN p gx gy b (k - 1) (by omega) g) (tileMN p gx gy b ⟨k, h⟩ g) := by
  cases k with
  | zero => exact absurd rfl hk
  | succ k => rfl

/-! The same quantity under two spellings of the image and of the tile number. -/

theorem accSW_congr {b b' : Fin 4} {k k' : ℕ} (h : k < 32) (h' : k' < 32) (hb : b = b') (hk : k = k') :
    accSW p gx gy b k h = accSW p gx gy b' k' h' := by subst hb; subst hk; rfl
theorem accSP_congr {b b' : Fin 4} {k k' : ℕ} (h : k < 32) (h' : k' < 32) (hb : b = b') (hk : k = k') :
    accSP p b k h = accSP p b' k' h' := by subst hb; subst hk; rfl
theorem accMN_congr {b b' : Fin 4} {k k' : ℕ} (h : k < 32) (h' : k' < 32) (hb : b = b') (hk : k = k') (g : Fin 512) :
    accMN p gx gy b k h g = accMN p gx gy b' k' h' g := by subst hb; subst hk; rfl

end Cert.Spec

end
-- ==== Proof.Step.lean ====
/-
  One grid point's update of the three running quantities, in the specification's terms: at the first tile
  of an image they become the tile's own values (zero plus the tile's sum; the lesser of +∞ and the tile's
  minimum), at a later tile the values after the tile before combined with the tile's.
-/
import proofs.«167800_j19816979104533_2_alg».proof.Proof.TileValue
import proofs.«167800_j19816979104533_2_alg».proof.Proof.AccStep

set_option maxRecDepth 16384

noncomputable section

namespace Cert.KernelIdeal.Tile

open Cert.KernelIdeal Cert.KernelIdeal.Gen Idealize.ShloMosaic Idealize.ShloMosaic.ValueIdx

section
variable (P : Fin 4 → Fin 256 → Fin 256 → EReal) (GX GY : Fin 4 → Fin 512 → ℝ) (b : Fin 4) (k : ℕ) (hk : k < 32)
  (i : grid0.Coords) (hi : (i 1).val = k)
  (x0 : Vec Ideal S1x1x8x256 .f32) (x1 x2 : Vec Ideal S1x1x512 .f32)
  (h0 : ∀ (r : Fin 8) (c : Fin 256), x0 (ix4 (0 : Fin 1) (0 : Fin 1) r c) = P b (Cert.Spec.hrow ⟨k, hk⟩ r) c)
  (h1 : ∀ g : Fin 512, x1 (ix3 (0 : Fin 1) (0 : Fin 1) g) = ((GX b g : ℝ) : EReal))
  (h2 : ∀ g : Fin 512, x2 (ix3 (0 : Fin 1) (0 : Fin 1) g) = ((GY b g : ℝ) : EReal))
include hi h0 h1 h2

/-- The running weighted sum after a later tile. -/
theorem next_sumW (hk0 : k ≠ 0) (xs0 : Vec Ideal S1x1 .f32)
    (hx : xs0 (ix2 (0 : Fin 1) (0 : Fin 1)) = Cert.Spec.accSW P GX GY b (k - 1) (by omega)) :
    k0_pay9 (F := Ideal) (k0_pay7 x0) (k0_pay8 i x1 x2) xs0 (ix2 (0 : Fin 1) (0 : Fin 1)) = Cert.Spec.accSW P GX GY b k hk := by
  rw [sumW_apply, hx, tile_sumW P GX GY b k hk i hi x0 x1 x2 h0 h1 h2, ← Cert.Spec.accSW_next P GX GY b k hk hk0]

/-- The running weighted sum after a first tile. -/
theorem first_sumW (hk0 : k = 0) :
    k0_pay9 (F := Ideal) (k0_pay7 x0) (k0_pay8 i x1 x2) (k0_pay3 (F := Ideal)) (ix2 (0 : Fin 1) (0 : Fin 1)) = Cert.Spec.accSW P GX GY b k hk := by
  rw [sumW_apply, start_sumW, Cert.Spec.zero_eq, zero_add, tile_sumW P GX GY b k hk i hi x0 x1 x2 h0 h1 h2,
    ← Cert.Spec.accSW_first P GX GY b k hk hk0]

/-- The running minimum after a later tile. -/
theorem next_minW (hk0 : k ≠ 0) (xs2 : Vec Ideal S1x512 .f32)
    (hx : ∀ g : Fin 512, xs2 (ix2 (0 : Fin 1) g) = Cert.Spec.accMN P GX GY b (k - 1) (by omega) g) (g : Fin 512) :
    k0_pay11 (F := Ideal) (k0_pay6 i x1 x2) (k0_pay7 x0) xs2 (ix2 (0 : Fin 1) g) = Cert.Spec.accMN P GX GY b k hk g := by
  rw [minW_apply, hx, tile_minW P GX GY b k hk i hi x0 x1 x2 h0 h1 h2 g, ← Cert.Spec.accMN_next P GX GY b k hk hk0]

/-- The running minimum after a first tile. -/
theorem first_minW (hk0 : k = 0) (g : Fin 512) :
    k0_pay11 (F := Ideal) (k0_pay6 i x1 x2) (k0_pay7 x0) (k0_pay5 (F := Ideal)) (ix2 (0 : Fin 1) g) = Cert.Spec.accMN P GX GY b k hk g := by
  rw [minW_apply, tile_minW P GX GY b k hk i hi x0 x1 x2 h0 h1 h2 g, start_minW, Cert.Spec.top_eq, min_top_left,
    ← Cert.Spec.accMN_first P GX GY b k hk hk0]

end

section
variable (P : Fin 4 → Fin 256 → Fin 256 → EReal) (b : Fin 4) (k : ℕ) (hk : k < 32)
  (x0 : Vec Ideal S1x1x8x256 .f32)
  (h0 : ∀ (r : Fin 8) (c : Fin 256), x0 (ix4 (0 : Fin 1) (0 : Fin 1) r c) = P b (Cert.Spec.hrow ⟨k, hk⟩ r) c)
include h0

/-- The running total weight after a later tile. -/
theorem next_sumP (hk0 : k ≠ 0) (xs1 : Vec Ideal S1x1 .f32)
    (hx : xs1 (ix2 (0 : Fin 1) (0 : Fin 1)) = Cert.Spec.accSP P b (k - 1) (by omega)) :
    k0_pay10 (F := Ideal) (k0_pay7 x0) xs1 (ix2 (0 : Fin 1) (0 : Fin 1)) = Cert.Spec.accSP P b k hk := by
  rw [sumP_apply, hx, tile_sumP P b k hk x0 h0, ← Cert.Spec.accSP_next P b k hk hk0]

/-- The running total weight after a first tile. -/
theorem first_sumP (hk0 : k = 0) :
    k0_pay10 (F := Ideal) (k0_pay7 x0) (k0_pay4 (F := Ideal)) (ix2 (0 : Fin 1) (0 : Fin 1)) = Cert.Spec.accSP P b k hk := by
  rw [sumP_apply, start_sumP, Cert.Spec.zero_eq, zero_add, tile_sumP P b k hk x0 h0, ← Cert.Spec.accSP_first P b k hk hk0]

end

end Cert.KernelIdeal.Tile

end
-- ==== Proof.Blocks.lean ====
/-
  The blocks a grid point reads, as entries of the argument arrays.

  Grid point `t` (of 4 · 32) is tile `t % 32` of image `t / 32`. Its block of the probability map is rows
  `8·(t % 32) … + 7` of that image (the map re-laid as [4, 32, 8, 256] before the call), and its two
  coordinate blocks are that image's 512 first and second point coordinates (converted to floats, sliced,
  and re-laid as [4, 1, 512] before the call).
-/
import proofs.«167800_j19816979104533_2_alg».proof.Proof.Spec
import proofs.«167800_j19816979104533_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

/-- The windows' block indices and the body's tile number at every grid point: image `t / 32`, tile `t % 32`. -/
theorem idx_facts : ∀ t : Fin cfg0.N,
    win0_0.index t (0 : Fin 4) = t.val / 32 ∧ win0_0.index t (1 : Fin 4) = t.val % 32
    ∧ win0_0.index t (2 : Fin 4) = 0 ∧ win0_0.index t (3 : Fin 4) = 0
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0
    ∧ (grid0.coords t (1 : Fin 2)).val = t.val % 32 :=
  (by decide +kernel : ∀ t : Fin grid0.N, _)

/-- The tile number the body is called with at point `t`. -/
theorem tile_coord (t : Fin cfg0.N) : (grid0.coords t (1 : Fin 2)).val = t.val % 32 := by
  obtain ⟨-, -, -, -, -, -, -, -, -, -, -, -, -, -, -, -, h⟩ := idx_facts t
  exact h

variable {F : FTy → Type} [FloatOps F]
variable (m : (ℓ : Loc nD τ sig) → Buf (Elt F) ℓ)

/-- The first operand of the call: the probability map re-laid as [4, 32, 8, 256]. -/
theorem V_map (c : Dev nD) :
    (V m c main_v0 : S4x32x8x256.Idx → Elt F .f32)
      = shapeCast S4x32x8x256 (m ((c : Thread nD τ).loc main_arg0)) shapeCasts_S4x256x256_S4x32x8x256 := by
  show StableHlo.after hostOps0 (fun b => m (c, b)) (Proc.devRef .tc main_v0) = _
  after_results
  rfl

/-- The second operand of the call: the points' first coordinates as floats, [4, 1, 512]. -/
theorem V_gx (c : Dev nD) :
    (V m c main_v4 : S4x1x512.Idx → Elt F .f32)
      = broadcastInDim S4x1x512 ![0, 2] bcast_S4x512_S4x1x512_0_2
          (shapeCast S4x512 (extractStridedSlice S4x512x1 ![0, 0, 0]
            (sitofp .f32 (m ((c : Thread nD τ).loc main_arg1)) : FVec F S4x512x2 .f32) slices_S4x512x2_S4x512x1_0_0_0) shapeCasts_S4x512x1_S4x512) := by
  show StableHlo.after hostOps0 (fun b => m (c, b)) (Proc.devRef .tc main_v4) = _
  after_results
  rfl

/-- The third operand of the call: the points' second coordinates as floats, [4, 1, 512]. -/
theorem V_gy (c : Dev nD) :
    (V m c main_v7 : S4x1x512.Idx → Elt F .f32)
      = broadcastInDim S4x1x512 ![0, 2] bcast_S4x512_S4x1x512_0_2
          (shapeCast S4x512 (extractStridedSlice S4x512x1 ![0, 0, 1]
            (sitofp .f32 (m ((c : Thread nD τ).loc main_arg1)) : FVec F S4x512x2 .f32) slices_S4x512x2_S4x512x1_0_0_1) shapeCasts_S4x512x1_S4x512) := by
  show StableHlo.after hostOps0 (fun b => m (c, b)) (Proc.devRef .tc main_v7) = _
  after_results
  rfl

/-! ## The blocks' entries -/

section AtIdeal
variable (mi : (ℓ : Loc nD τ sig) → Buf (Elt Ideal) ℓ)

theorem lt_four (t : Fin cfg0.N) : t.val / 32 < 4 := by
  have := lt_of_lt_of_eq t.isLt (show cfg0.N = 128 from N_0); omega
theorem lt_tiles (t : Fin cfg0.N) : t.val % 32 < 32 := Nat.mod_lt _ (by decide)

/-- Entry (r, c) of point `t`'s block of the probability map is the map at image `t / 32`, row `8·(t % 32) + r`,
    column `c`. -/
theorem block_map (c : Dev nD) (t : Fin cfg0.N) (r : Fin 8) (cc : Fin 256) :
    (iblk mi c 0 t : Vec Ideal S1x1x8x256 .f32) (ix4 (0 : Fin 1) (0 : Fin 1) r cc)
      = Cert.Spec.pOf (mi ((c : Thread nD τ).loc main_arg0)) ⟨t.val / 32, lt_four t⟩ (Cert.Spec.hrow ⟨t.val % 32, lt_tiles t⟩ r) cc := by
  unfold iblk
  rw [View.read_apply]
  show V mi c main_v0 (((cfg0.win 0).blk t).view.emb (ix4 (0 : Fin 1) (0 : Fin 1) r cc)) = _
  rw [V_map]
  refine (shapeCast_apply _ _ _ (ix3 (⟨t.val / 32, lt_four t⟩ : Fin 4) (Cert.Spec.hrow ⟨t.val % 32, lt_tiles t⟩ r) cc) ?_).trans rfl
  rw [Shape.rowMajor_val_three, Shape.rowMajor_val_four]
  obtain ⟨e0, e1, e2, e3, -⟩ := idx_facts t
  show (t.val / 32 * 256 + (8 * (t.val % 32) + r.val)) * 256 + cc.val
    = (((win0_0.index t (0 : Fin 4) * 1 + 1 * 0) * 32 + (win0_0.index t (1 : Fin 4) * 1 + 1 * 0)) * 8
        + (win0_0.index t (2 : Fin 4) * 8 + 1 * r.val)) * 256 + (win0_0.index t (3 : Fin 4) * 256 + 1 * cc.val)
  rw [e0, e1, e2, e3]
  omega

/-- Entry g of point `t`'s first coordinate block is the first coordinate of point g of image `t / 32`. -/
theorem block_gx (c : Dev nD) (t : Fin cfg0.N) (g : Fin 512) :
    (iblk mi c 1 t : Vec Ideal S1x1x512 .f32) (ix3 (0 : Fin 1) (0 : Fin 1) g)
      = ((Cert.Spec.gxOf (mi ((c : Thread nD τ).loc main_arg1)) ⟨t.val / 32, lt_four t⟩ g : ℝ) : EReal) := by
  unfold iblk
  rw [View.read_apply]
  show V mi c main_v4 (((cfg0.win 1).blk t).view.emb (ix3 (0 : Fin 1) (0 : Fin 1) g)) = _
  rw [V_gx]
  obtain ⟨-, -, -, -, e0, e1, e2, -⟩ := idx_facts t
  refine (broadcastInDim_apply _ _ _ _ (ix2 (⟨t.val / 32, lt_four t⟩ : Fin 4) g) ?_).trans ?_
  · intro a
    match a with
    | ⟨0, _⟩ =>
      show t.val / 32 = if (4 : ℕ) = 1 then 0 else win0_1.index t (0 : Fin 3) * 1 + 1 * 0
      rw [if_neg (by decide), e0]; omega
    | ⟨1, _⟩ =>
      show g.val = if (512 : ℕ) = 1 then 0 else win0_1.index t (2 : Fin 3) * 512 + 1 * g.val
      rw [if_neg (by decide), e2]; omega
  · refine (shapeCast_apply _ _ _ (ix3 (⟨t.val / 32, lt_four t⟩ : Fin 4) g (0 : Fin 1)) ?_).trans ?_
    · rw [Shape.rowMajor_val_three, Shape.rowMajor_val_two]
      show (t.val / 32 * 512 + g.val) * 1 + 0 = t.val / 32 * 512 + g.val
      omega
    · unfold extractStridedSlice Cert.Spec.gxOf
      refine congrArg (fun w : BitVec 32 => ((w.toInt : ℝ) : EReal))
        (congrArg (mi ((c : Thread nD τ).loc main_arg1)) (funext fun a => Fin.ext ?_))
      match a with
      | ⟨0, _⟩ => show 0 + t.val / 32 = t.val / 32; omega
      | ⟨1, _⟩ => show 0 + g.val = g.val; omega
      | ⟨2, _⟩ => show 0 + 0 = 0; rfl

/-- Entry g of point `t`'s second coordinate block is the second coordinate of point g of image `t / 32`. -/
theorem block_gy (c : Dev nD) (t : Fin cfg0.N) (g : Fin 512) :
    (iblk mi c 2 t : Vec Ideal S1x1x512 .f32) (ix3 (0 : Fin 1) (0 : Fin 1) g)
      = ((Cert.Spec.gyOf (mi ((c : Thread nD τ).loc main_arg1)) ⟨t.val / 32, lt_four t⟩ g : ℝ) : EReal) := by
  unfold iblk
  rw [View.read_apply]
  show V mi c main_v7 (((cfg0.win 2).blk t).view.emb (ix3 (0 : Fin 1) (0 : Fin 1) g)) = _
  rw [V_gy]
  obtain ⟨-, -, -, -, -, -, -, e0, e1, e2, -⟩ := idx_facts t
  refine (broadcastInDim_apply _ _ _ _ (ix2 (⟨t.val / 32, lt_four t⟩ : Fin 4) g) ?_).trans ?_
  · intro a
    match a with
    | ⟨0, _⟩ =>
      show t.val / 32 = if (4 : ℕ) = 1 then 0 else win0_2.index t (0 : Fin 3) * 1 + 1 * 0
      rw [if_neg (by decide), e0]; omega
    | ⟨1, _⟩ =>
      show g.val = if (512 : ℕ) = 1 then 0 else win0_2.index t (2 : Fin 3) * 512 + 1 * g.val
      rw [if_neg (by decide), e2]; omega
  · refine (shapeCast_apply _ _ _ (ix3 (⟨t.val / 32, lt_four t⟩ : Fin 4) g (0 : Fin 1)) ?_).trans ?_
    · rw [Shape.rowMajor_val_three, Shape.rowMajor_val_two]
      show (t.val / 32 * 512 + g.val) * 1 + 0 = t.val / 32 * 512 + g.val
      omega
    · unfold extractStridedSlice Cert.Spec.gyOf
      refine congrArg (fun w : BitVec 32 => ((w.toInt : ℝ) : EReal))
        (congrArg (mi ((c : Thread nD τ).loc main_arg1)) (funext fun a => Fin.ext ?_))
      match a with
      | ⟨0, _⟩ => show 0 + t.val / 32 = t.val / 32; omega
      | ⟨1, _⟩ => show 0 + g.val = g.val; omega
      | ⟨2, _⟩ => show 1 + 0 = 1; rfl

end AtIdeal

end Cert.KernelIdeal.Blocks

end
-- ==== Proof.Invariant.lean ====
/-
  What the five buffers hold after every grid point.

  After the body at grid point `t` — tile `t % 32` of image `t / 32` — the three carried buffers hold the
  specification's running weighted sum, running total weight and running minimum of that image after that
  tile, and the two output blocks hold the quotient of the first two (with ε) and the running minimum. The
  carried buffers are followed from point to point by induction: a first tile starts them afresh, a later
  tile updates what the point before left.
-/
import proofs.«167800_j19816979104533_2_alg».proof.Proof.Pieces
import proofs.«167800_j19816979104533_2_alg».proof.Proof.Step
import proofs.«167800_j19816979104533_2_alg».proof.Proof.Blocks

set_option maxRecDepth 16384

noncomputable section

open Idealize.ShloMosaic Idealize.ShloMosaic.TcCoe Idealize.SL.Sem
open Idealize.ShloMosaic.Pipeline (Dat)

namespace Cert.KernelIdeal.Inv

open Cert.KernelIdeal Cert.KernelIdeal.Gen Idealize.ShloMosaic.ValueIdx Cert.KernelIdeal.Blocks

variable (mi : (ℓ : Loc nD τ sig) → Buf (Elt Ideal) ℓ) (c : Dev nD)

theorem tuple_congr {α β γ δ ε : Type} {a a' : α} {b b' : β} {x x' : γ} {d d' : δ} {e e' : ε}
    (h1 : a = a') (h2 : b = b') (h3 : x = x') (h4 : d = d') (h5 : e = e') : (a, b, x, d, e) = (a', b', x', d', e') := by
  rw [h1, h2, h3, h4, h5]

/-- The five buffers after a first tile, as terms of the body's arithmetic over the point's three blocks. -/
theorem after_first (t : Fin cfg0.N) (h0 : t.val % 32 = 0) :
    outsAt0 mi c t.val t.isLt
      = (k0_pay1 (F := Ideal) (k0_pay9 (F := Ideal) (k0_pay7 (F := Ideal) (iblk mi c 0 t)) (k0_pay8 (F := Ideal) (grid0.coords t) (iblk mi c 1 t) (iblk mi c 2 t)) (k0_pay3 (F := Ideal))) (k0_pay10 (F := Ideal) (k0_pay7 (F := Ideal) (iblk mi c 0 t)) (k0_pay4 (F := Ideal))),
         k0_pay2 (F := Ideal) (k0_pay11 (F := Ideal) (k0_pay6 (F := Ideal) (grid0.coords t) (iblk mi c 1 t) (iblk mi c 2 t)) (k0_pay7 (F := Ideal) (iblk mi c 0 t)) (k0_pay5 (F := Ideal))),
         k0_pay9 (F := Ideal) (k0_pay7 (F := Ideal) (iblk mi c 0 t)) (k0_pay8 (F := Ideal) (grid0.coords t) (iblk mi c 1 t) (iblk mi c 2 t)) (k0_pay3 (F := Ideal)),
         k0_pay10 (F := Ideal) (k0_pay7 (F := Ideal) (iblk mi c 0 t)) (k0_pay4 (F := Ideal)),
         k0_pay11 (F := Ideal) (k0_pay6 (F := Ideal) (grid0.coords t) (iblk mi c 1 t) (iblk mi c 2 t)) (k0_pay7 (F := Ideal) (iblk mi c 0 t)) (k0_pay5 (F := Ideal))) :=
  (outsAt0_A mi c t h0).trans (tuple_congr
    (Pieces.quot_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk mi c 0 t) (iblk mi c 1 t) (iblk mi c 2 t))
    (Pieces.mins_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk mi c 0 t) (iblk mi c 1 t) (iblk mi c 2 t))
    (Pieces.sumW_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk mi c 0 t) (iblk mi c 1 t) (iblk mi c 2 t))
    (Pieces.sumP_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk mi c 0 t) (iblk mi c 1 t) (iblk mi c 2 t))
    (Pieces.minW_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk mi c 0 t) (iblk mi c 1 t) (iblk mi c 2 t)))

/-- The five buffers after a later tile, over the point's three blocks and what the point before left in the
    three carried buffers. -/
theorem after_later (t : Fin cfg0.N) (h0 : ¬t.val % 32 = 0) :
    outsAt0 mi c t.val t.isLt
      = (k0_pay1 (F := Ideal) (k0_pay9 (F := Ideal) (k0_pay7 (F := Ideal) (iblk mi c 0 t)) (k0_pay8 (F := Ideal) (grid0.coords t) (iblk mi c 1 t) (iblk mi c 2 t)) (outsAt0 mi c (t.val - 1) (Nat.lt_of_le_of_lt (Nat.sub_le _ _) t.isLt)).2.2.1) (k0_pay10 (F := Ideal) (k0_pay7 (F := Ideal) (iblk mi c 0 t)) (outsAt0 mi c (t.val - 1) (Nat.lt_of_le_of_lt (Nat.sub_le _ _) t.isLt)).2.2.2.1),
         k0_pay2 (F := Ideal) (k0_pay11 (F := Ideal) (k0_pay6 (F := Ideal) (grid0.coords t) (iblk mi c 1 t) (iblk mi c 2 t)) (k0_pay7 (F := Ideal) (iblk mi c 0 t)) (outsAt0 mi c (t.val - 1) (Nat.lt_of_le_of_lt (Nat.sub_le _ _) t.isLt)).2.2.2.2),
         k0_pay9 (F := Ideal) (k0_pay7 (F := Ideal) (iblk mi c 0 t)) (k0_pay8 (F := Ideal) (grid0.coords t) (iblk mi c 1 t) (iblk mi c 2 t)) (outsAt0 mi c (t.val - 1) (Nat.lt_of_le_of_lt (Nat.sub_le _ _) t.isLt)).2.2.1,
         k0_pay10 (F := Ideal) (k0_pay7 (F := Ideal) (iblk mi c 0 t)) (outsAt0 mi c (t.val - 1) (Nat.lt_of_le_of_lt (Nat.sub_le _ _) t.isLt)).2.2.2.1,
         k0_pay11 (F := Ideal) (k0_pay6 (F := Ideal) (grid0.coords t) (iblk mi c 1 t) (iblk mi c 2 t)) (k0_pay7 (F := Ideal) (iblk mi c 0 t)) (outsAt0 mi c (t.val - 1) (Nat.lt_of_le_of_lt (Nat.sub_le _ _) t.isLt)).2.2.2.2) :=
  (outsAt0_B mi c t h0).trans (tuple_congr
    (Pieces.quot_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk mi c 0 t) (iblk mi c 1 t) (iblk mi c 2 t) (outsAt0 mi c (t.val - 1) (Nat.lt_of_le_of_lt (Nat.sub_le _ _) t.isLt)).2.2.1 (outsAt0 mi c (t.val - 1) (Nat.lt_of_le_of_lt (Nat.sub_le _ _) t.isLt)).2.2.2.1 (outsAt0 mi c (t.val - 1) (Nat.lt_of_le_of_lt (Nat.sub_le _ _) t.isLt)).2.2.2.2)
    (Pieces.mins_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk mi c 0 t) (iblk mi c 1 t) (iblk mi c 2 t) (outsAt0 mi c (t.val - 1) (Nat.lt_of_le_of_lt (Nat.sub_le _ _) t.isLt)).2.2.1 (outsAt0 mi c (t.val - 1) (Nat.lt_of_le_of_lt (Nat.sub_le _ _) t.isLt)).2.2.2.1 (outsAt0 mi c (t.val - 1) (Nat.lt_of_le_of_lt (Nat.sub_le _ _) t.isLt)).2.2.2.2)
    (Pieces.sumW_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk mi c 0 t) (iblk mi c 1 t) (iblk mi c 2 t) (outsAt0 mi c (t.val - 1) (Nat.lt_of_le_of_lt (Nat.sub_le _ _) t.isLt)).2.2.1 (outsAt0 mi c (t.val - 1) (Nat.lt_of_le_of_lt (Nat.sub_le _ _) t.isLt)).2.2.2.1 (outsAt0 mi c (t.val - 1) (Nat.lt_of_le_of_lt (Nat.sub_le _ _) t.isLt)).2.2.2.2)
    (Pieces.sumP_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk mi c 0 t) (iblk mi c 1 t) (iblk mi c 2 t) (outsAt0 mi c (t.val - 1) (Nat.lt_of_le_of_lt (Nat.sub_le _ _) t.isLt)).2.2.1 (outsAt0 mi c (t.val - 1) (Nat.lt_of_le_of_lt (Nat.sub_le _ _) t.isLt)).2.2.2.1 (outsAt0 mi c (t.val - 1) (Nat.lt_of_le_of_lt (Nat.sub_le _ _) t.isLt)).2.2.2.2)
    (Pieces.minW_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk mi c 0 t) (iblk mi c 1 t) (iblk mi c 2 t) (outsAt0 mi c (t.val - 1) (Nat.lt_of_le_of_lt (Nat.sub_le _ _) t.isLt)).2.2.1 (outsAt0 mi c (t.val - 1) (Nat.lt_of_le_of_lt (Nat.sub_le _ _) t.isLt)).2.2.2.1 (outsAt0 mi c (t.val - 1) (Nat.lt_of_le_of_lt (Nat.sub_le _ _) t.isLt)).2.2.2.2))

/-! ## The three carried buffers, point by point -/

theorem lt_four' (n : ℕ) (hn : n < cfg0.N) : n / 32 < 4 := by
  have := lt_of_lt_of_eq hn (show cfg0.N = 128 from N_0); omega

/-- After point `n` the three carried buffers hold the running quantities of image `n / 32` after tile `n % 32`. -/
def Holds (n : ℕ) (hn : n < cfg0.N) : Prop :=
  (outsAt0 mi c n hn).2.2.1 (ix2 (0 : Fin 1) (0 : Fin 1))
      = Cert.Spec.accSW (Cert.Spec.pOf (mi ((c : Thread nD τ).loc main_arg0))) (Cert.Spec.gxOf (mi ((c : Thread nD τ).loc main_arg1)))
          (Cert.Spec.gyOf (mi ((c : Thread nD τ).loc main_arg1))) ⟨n / 32, lt_four' n hn⟩ (n % 32) (Nat.mod_lt _ (by decide))
  ∧ (outsAt0 mi c n hn).2.2.2.1 (ix2 (0 : Fin 1) (0 : Fin 1))
      = Cert.Spec.accSP (Cert.Spec.pOf (mi ((c : Thread nD τ).loc main_arg0))) ⟨n / 32, lt_four' n hn⟩ (n % 32) (Nat.mod_lt _ (by decide))
  ∧ ∀ g : Fin 512, (outsAt0 mi c n hn).2.2.2.2 (ix2 (0 : Fin 1) g)
      = Cert.Spec.accMN (Cert.Spec.pOf (mi ((c : Thread nD τ).loc main_arg0))) (Cert.Spec.gxOf (mi ((c : Thread nD τ).loc main_arg1)))
          (Cert.Spec.gyOf (mi ((c : Thread nD τ).loc main_arg1))) ⟨n / 32, lt_four' n hn⟩ (n % 32) (Nat.mod_lt _ (by decide)) g

/-- A first tile sets the carried buffers to the tile's own values. -/
theorem holds_first (t : Fin cfg0.N) (h0 : t.val % 32 = 0) : Holds mi c t.val t.isLt := by
  unfold Holds
  rw [after_first mi c t h0]
  dsimp only
  exact ⟨Tile.first_sumW (Cert.Spec.pOf (mi ((c : Thread nD τ).loc main_arg0))) (Cert.Spec.gxOf (mi ((c : Thread nD τ).loc main_arg1))) (Cert.Spec.gyOf (mi ((c : Thread nD τ).loc main_arg1))) ⟨t.val / 32, lt_four t⟩ (t.val % 32) (lt_tiles t) (grid0.coords t) (tile_coord t) (iblk mi c 0 t) (iblk mi c 1 t) (iblk mi c 2 t) (block_map mi c t) (block_gx mi c t) (block_gy mi c t) h0,
    Tile.first_sumP (Cert.Spec.pOf (mi ((c : Thread nD τ).loc main_arg0))) ⟨t.val / 32, lt_four t⟩ (t.val % 32) (lt_tiles t) (iblk mi c 0 t) (block_map mi c t) h0,
    fun g => Tile.first_minW (Cert.Spec.pOf (mi ((c : Thread nD τ).loc main_arg0))) (Cert.Spec.gxOf (mi ((c : Thread nD τ).loc main_arg1))) (Cert.Spec.gyOf (mi ((c : Thread nD τ).loc main_arg1))) ⟨t.val / 32, lt_four t⟩ (t.val % 32) (lt_tiles t) (grid0.coords t) (tile_coord t) (iblk mi c 0 t) (iblk mi c 1 t) (iblk mi c 2 t) (block_map mi c t) (block_gx mi c t) (block_gy mi c t) h0 g⟩

/-- A later tile updates what the point before left. -/
theorem holds_later (t : Fin cfg0.N) (h0 : ¬t.val % 32 = 0)
    (ih : Holds mi c (t.val - 1) (Nat.lt_of_le_of_lt (Nat.sub_le _ _) t.isLt)) : Holds mi c t.val t.isLt := by
  have hb : (⟨(t.val - 1) / 32, lt_four' _ (Nat.lt_of_le_of_lt (Nat.sub_le _ _) t.isLt)⟩ : Fin 4) = ⟨t.val / 32, lt_four t⟩ :=
    Fin.ext (by show (t.val - 1) / 32 = t.val / 32; omega)
  have hk : (t.val - 1) % 32 = t.val % 32 - 1 := by omega
  obtain ⟨i1, i2, i3⟩ := ih
  unfold Holds
  rw [after_later mi c t h0]
  dsimp only
  exact ⟨Tile.next_sumW (Cert.Spec.pOf (mi ((c : Thread nD τ).loc main_arg0))) (Cert.Spec.gxOf (mi ((c : Thread nD τ).loc main_arg1))) (Cert.Spec.gyOf (mi ((c : Thread nD τ).loc main_arg1))) ⟨t.val / 32, lt_four t⟩ (t.val % 32) (lt_tiles t) (grid0.coords t) (tile_coord t) (iblk mi c 0 t) (iblk mi c 1 t) (iblk mi c 2 t) (block_map mi c t) (block_gx mi c t) (block_gy mi c t) h0 _ (i1.trans (Cert.Spec.accSW_congr _ _ _ _ _ hb hk)),
    Tile.next_sumP (Cert.Spec.pOf (mi ((c : Thread nD τ).loc main_arg0))) ⟨t.val / 32, lt_four t⟩ (t.val % 32) (lt_tiles t) (iblk mi c 0 t) (block_map mi c t) h0 _ (i2.trans (Cert.Spec.accSP_congr _ _ _ hb hk)),
    fun g => Tile.next_minW (Cert.Spec.pOf (mi ((c : Thread nD τ).loc main_arg0))) (Cert.Spec.gxOf (mi ((c : Thread nD τ).loc main_arg1))) (Cert.Spec.gyOf (mi ((c : Thread nD τ).loc main_arg1))) ⟨t.val / 32, lt_four t⟩ (t.val % 32) (lt_tiles t) (grid0.coords t) (tile_coord t) (iblk mi c 0 t) (iblk mi c 1 t) (iblk mi c 2 t) (block_map mi c t) (block_gx mi c t) (block_gy mi c t) h0 _ (fun g' => (i3 g').trans (Cert.Spec.accMN_congr _ _ _ _ _ hb hk g')) g⟩

/-- The carried buffers after every point, by induction on the point. -/
theorem holds : ∀ (n : ℕ) (hn : n < cfg0.N), Holds mi c n hn
  | 0, hn => holds_first mi c ⟨0, hn⟩ rfl
  | n + 1, hn =>
    if h0 : (n + 1) % 32 = 0 then holds_first mi c ⟨n + 1, hn⟩ h0
    else holds_later mi c ⟨n + 1, hn⟩ h0 (holds n (Nat.lt_of_succ_lt hn))

/-! ## The two output blocks -/

/-- At every point the output blocks are the quotient term and the minimum term of what the point leaves in
    the carried buffers. -/
theorem outputs_of_carried (t : Fin cfg0.N) :
    (outsAt0 mi c t.val t.isLt).1 = k0_pay1 (F := Ideal) (outsAt0 mi c t.val t.isLt).2.2.1 (outsAt0 mi c t.val t.isLt).2.2.2.1
    ∧ (outsAt0 mi c t.val t.isLt).2.1 = k0_pay2 (F := Ideal) (outsAt0 mi c t.val t.isLt).2.2.2.2 := by
  by_cases h0 : t.val % 32 = 0
  · rw [after_first mi c t h0]; exact ⟨rfl, rfl⟩
  · rw [after_later mi c t h0]; exact ⟨rfl, rfl⟩

/-- The first output block after point `t`: the running weighted sum over the running total weight plus ε. -/
theorem quotient_block (t : Fin cfg0.N) :
    (outsAt0 mi c t.val t.isLt).1 (ix3 (0 : Fin 1) (0 : Fin 1) (0 : Fin 1))
      = Ideal.div
          (Cert.Spec.accSW (Cert.Spec.pOf (mi ((c : Thread nD τ).loc main_arg0))) (Cert.Spec.gxOf (mi ((c : Thread nD τ).loc main_arg1)))
            (Cert.Spec.gyOf (mi ((c : Thread nD τ).loc main_arg1))) ⟨t.val / 32, lt_four t⟩ (t.val % 32) (lt_tiles t))
          (Cert.Spec.accSP (Cert.Spec.pOf (mi ((c : Thread nD τ).loc main_arg0))) ⟨t.val / 32, lt_four t⟩ (t.val % 32) (lt_tiles t)
            + Cert.Spec.eps) := by
  obtain ⟨i1, i2, -⟩ := holds mi c t.val t.isLt
  rw [(outputs_of_carried mi c t).1, Tile.quot_apply, i1, i2]

/-- The second output block after point `t`: the running minimum. -/
theorem minimum_block (t : Fin cfg0.N) (g : Fin 512) :
    (outsAt0 mi c t.val t.isLt).2.1 (ix3 (0 : Fin 1) (0 : Fin 1) g)
      = Cert.Spec.accMN (Cert.Spec.pOf (mi ((c : Thread nD τ).loc main_arg0))) (Cert.Spec.gxOf (mi ((c : Thread nD τ).loc main_arg1)))
          (Cert.Spec.gyOf (mi ((c : Thread nD τ).loc main_arg1))) ⟨t.val / 32, lt_four t⟩ (t.val % 32) (lt_tiles t) g := by
  obtain ⟨-, -, i3⟩ := holds mi c t.val t.isLt
  rw [(outputs_of_carried mi c t).2, Tile.mins_apply, i3]

end Cert.KernelIdeal.Inv

end
-- ==== Proof.HostTail.lean ====
/-
  The scalar tail of the tiled program: what is computed from the two arrays the tiled pass returns.

  The first array holds, per image, the quotient of the weighted distance sum by the total weight plus the guard; the
  second holds, per image and point, the least weighted distance over the pixels. The tail takes the mean of the four
  quotients (their sum from zero, over 4), the mean over the points of each image's minima (their sum from zero, over
  512) and the mean of those four means (their sum from zero, over 4), and adds the two means. That is
  `Cert.Spec.result` of the per-image quantities, with the constants 512 and 4 kept as the words the program spells.
-/
import proofs.«167800_j19816979104533_2_alg».proof.Proof.Spec
import proofs.«167800_j19816979104533_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.HostTail

open Cert.KernelIdeal Cert.KernelIdeal.Gen Idealize.ShloMosaic Idealize.ShloMosaic.ValueIdx

/-- What @main computes from the two arrays the kernel call returns: the per-image quotients `o3` are summed from zero and
    divided by 4; the per-image, per-point minima `o4` are summed from zero over the points and divided by 512, and those
    four means are summed from zero and divided by 4; the result is the sum of the two means. -/
def tail (o3 : FVec Ideal S4x1x1 .f32) (o4 : FVec Ideal S4x1x512 .f32) : FVec Ideal S_ .f32 :=
  addf (Host.divf (F := Ideal) (Host.reduceAdd (F := Ideal) (shapeCast S4 o3 shapeCasts_S4x1x1_S4) (constant (F := Ideal) S_ .f32 0x00000000#32) reducesTo_S4_S_d0 h_S_) (constant (F := Ideal) S_ .f32 0x40800000#32))
       (Host.divf (F := Ideal) (Host.reduceAdd (F := Ideal) (Host.divf (F := Ideal) (Host.reduceAdd (F := Ideal) (shapeCast S4x512 o4 shapeCasts_S4x1x512_S4x512) (constant (F := Ideal) S_ .f32 0x00000000#32) reducesTo_S4x512_S4_d1 h_S_) (broadcastInDim S4 ![] bcast_S_S4 (constant (F := Ideal) S_ .f32 0x44000000#32))) (constant (F := Ideal) S_ .f32 0x00000000#32) reducesTo_S4_S_d0 h_S_) (constant (F := Ideal) S_ .f32 0x40800000#32))

/-- A sum over the indices of a one-axis array is the sum over the axis. -/
theorem sum_idx1 {n : Nat} (f : (⟨1, ![n]⟩ : Shape).Idx → EReal) : ∑ j, f j = ∑ a : Fin n, f (ix1 a) := by
  let e : (⟨1, ![n]⟩ : Shape).Idx ≃ Fin n :=
    { toFun := fun j => j 0, invFun := fun a => ix1 a, left_inv := fun j => (eq_ix1 j).symm, right_inv := fun _ => rfl }
  rw [← Equiv.sum_comp e.symm f]
  rfl

/-- The quotients as a list of four: entry `b` is the array's entry `(b, 0, 0)`. -/
theorem quot_apply (o3 : FVec Ideal S4x1x1 .f32) (b : Fin 4) :
    shapeCast S4 o3 shapeCasts_S4x1x1_S4 (ix1 b) = o3 (ix3 b (0 : Fin 1) (0 : Fin 1)) :=
  shapeCast_apply o3 shapeCasts_S4x1x1_S4 (ix1 b) (ix3 b (0 : Fin 1) (0 : Fin 1))
    (by rewrite [Shape.rowMajor_val_three, Shape.rowMajor_val_one]; show (b.val * 1 + 0) * 1 + 0 = b.val; omega)

/-- The minima as a 4 × 512 table: entry `(b, g)` is the array's entry `(b, 0, g)`. -/
theorem min_apply (o4 : FVec Ideal S4x1x512 .f32) (b : Fin 4) (g : Fin 512) :
    shapeCast S4x512 o4 shapeCasts_S4x1x512_S4x512 (ix2 b g) = o4 (ix3 b (0 : Fin 1) g) :=
  shapeCast_apply o4 shapeCasts_S4x1x512_S4x512 (ix2 b g) (ix3 b (0 : Fin 1) g)
    (by rewrite [Shape.rowMajor_val_three, Shape.rowMajor_val_two]; show (b.val * 1 + 0) * 512 + g.val = b.val * 512 + g.val; omega)

/-- The sum from zero along the rows of a 4 × 512 table. -/
theorem rowSum_apply (y : FVec Ideal S4x512 .f32) (b : Fin 4) :
    Host.reduceAdd (F := Ideal) y (constant (F := Ideal) S_ .f32 0x00000000#32) reducesTo_S4x512_S4_d1 h_S_ (ix1 b)
      = 0 + ∑ g : Fin 512, y (ix2 b g) := by
  have h : S4x512.Reduces [1] S4 := by decide
  simp only [Host.reduceAdd, Ideal.hostReduceAdd_def]
  rw [Ideal.hostReduceAdd_single reducesTo_S4x512_S4_d1 h, constant_apply, Cert.Spec.zero_eq]
  refine congrArg (_ + ·) (Finset.sum_congr rfl fun k _ => ?_)
  exact congrArg y (funext fun a => Fin.ext (by match a with | ⟨0, _⟩ => rfl | ⟨1, _⟩ => rfl))

/-- The sum from zero of a list of four. -/
theorem totalSum_apply (y : FVec Ideal S4 .f32) (i : S_.Idx) :
    Host.reduceAdd (F := Ideal) y (constant (F := Ideal) S_ .f32 0x00000000#32) reducesTo_S4_S_d0 h_S_ i
      = 0 + ∑ b : Fin 4, y (ix1 b) := by
  simp only [Host.reduceAdd, Ideal.hostReduceAdd_def]
  refine (Ideal.hostReduceAdd_total reducesTo_S4_S_d0 (fun b => b.elim0) y _ i).trans ?_
  rw [sum_idx1, constant_apply, Cert.Spec.zero_eq]

/-- The mean over the points of image `b`'s minima: their sum from zero over 512. -/
theorem pointMean_apply (o4 : FVec Ideal S4x1x512 .f32) (mn : Fin 4 → Fin 512 → EReal)
    (h4 : ∀ (b : Fin 4) (g : Fin 512), o4 (ix3 b (0 : Fin 1) g) = mn b g) (b : Fin 4) :
    Host.divf (F := Ideal) (Host.reduceAdd (F := Ideal) (shapeCast S4x512 o4 shapeCasts_S4x1x512_S4x512) (constant (F := Ideal) S_ .f32 0x00000000#32) reducesTo_S4x512_S4_d1 h_S_) (broadcastInDim S4 ![] bcast_S_S4 (constant (F := Ideal) S_ .f32 0x44000000#32)) (ix1 b)
      = Ideal.div (0 + ∑ g : Fin 512, mn b g) Cert.Spec.c512 := by
  show Ideal.div (Host.reduceAdd (F := Ideal) (shapeCast S4x512 o4 shapeCasts_S4x1x512_S4x512) (constant (F := Ideal) S_ .f32 0x00000000#32) reducesTo_S4x512_S4_d1 h_S_ (ix1 b))
      (broadcastInDim S4 ![] bcast_S_S4 (constant (F := Ideal) S_ .f32 0x44000000#32) (ix1 b)) = _
  rw [rowSum_apply, broadcastInDim_apply _ bcast_S_S4 (constant (F := Ideal) S_ .f32 0x44000000#32) (ix1 b) ix0 (fun a => a.elim0),
    constant_apply]
  refine congrArg (fun s => Ideal.div (0 + s) Cert.Spec.c512) (Finset.sum_congr rfl fun g _ => ?_)
  rw [min_apply, h4]

/-- The tail is the specification's result of the per-image quantities the two arrays hold. -/
theorem tail_eq (o3 : FVec Ideal S4x1x1 .f32) (o4 : FVec Ideal S4x1x512 .f32) (sw sp : Fin 4 → EReal) (mn : Fin 4 → Fin 512 → EReal)
    (h3 : ∀ b : Fin 4, o3 (ix3 b (0 : Fin 1) (0 : Fin 1)) = Ideal.div (sw b) (sp b + Cert.Spec.eps))
    (h4 : ∀ (b : Fin 4) (g : Fin 512), o4 (ix3 b (0 : Fin 1) g) = mn b g) :
    tail o3 o4 = fun _ => Cert.Spec.result sw sp mn := by
  funext i
  unfold tail
  show Ideal.div (Host.reduceAdd (F := Ideal) (shapeCast S4 o3 shapeCasts_S4x1x1_S4) (constant (F := Ideal) S_ .f32 0x00000000#32) reducesTo_S4_S_d0 h_S_ i) (constant (F := Ideal) S_ .f32 0x40800000#32 i)
      + Ideal.div (Host.reduceAdd (F := Ideal) (Host.divf (F := Ideal) (Host.reduceAdd (F := Ideal) (shapeCast S4x512 o4 shapeCasts_S4x1x512_S4x512) (constant (F := Ideal) S_ .f32 0x00000000#32) reducesTo_S4x512_S4_d1 h_S_) (broadcastInDim S4 ![] bcast_S_S4 (constant (F := Ideal) S_ .f32 0x44000000#32))) (constant (F := Ideal) S_ .f32 0x00000000#32) reducesTo_S4_S_d0 h_S_ i) (constant (F := Ideal) S_ .f32 0x40800000#32 i) = _
  rw [totalSum_apply, totalSum_apply, constant_apply]
  simp only [quot_apply, h3, pointMean_apply o4 mn h4]
  rfl

end Cert.KernelIdeal.HostTail

end
-- ==== Proof.KernelValue.lean ====
/-
  The kernel program's result.

  The two arrays the call returns are written back once per image, after the image's last tile: entry
  `(b, 0, 0)` of the first is the image's whole weighted sum over its whole weight plus ε, entry `(b, 0, g)`
  of the second is the image's least weighted distance to point `g`. The operations after the call take the
  means, which gives the specification's result over the tiled arrangement.
-/
import proofs.«167800_j19816979104533_2_alg».proof.Proof.Invariant
import proofs.«167800_j19816979104533_2_alg».proof.Proof.HostTail

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.KernelIdeal.Blocks

variable (mi : (ℓ : Loc nD τ sig) → Buf (Elt Ideal) ℓ) (ρ : Dev nD → PrngReg) (c : Dev nD)

/-- The whole-image quantities: the running ones after the last tile. -/
abbrev sw (b : Fin 4) : EReal := Cert.Spec.accSW (Cert.Spec.pOf (mi ((c : Thread nD τ).loc main_arg0))) (Cert.Spec.gxOf (mi ((c : Thread nD τ).loc main_arg1))) (Cert.Spec.gyOf (mi ((c : Thread nD τ).loc main_arg1))) b 31 (by norm_num)
abbrev sp (b : Fin 4) : EReal := Cert.Spec.accSP (Cert.Spec.pOf (mi ((c : Thread nD τ).loc main_arg0))) b 31 (by norm_num)
abbrev mn (b : Fin 4) (g : Fin 512) : EReal := Cert.Spec.accMN (Cert.Spec.pOf (mi ((c : Thread nD τ).loc main_arg0))) (Cert.Spec.gxOf (mi ((c : Thread nD τ).loc main_arg1))) (Cert.Spec.gyOf (mi ((c : Thread nD τ).loc main_arg1))) b 31 (by norm_num) g

/-- What the first result array ends holding. -/
def quotients : S4x1x1.Idx → EReal :=
  fun j => Ideal.div (sw mi c ⟨(j 0).val, (j 0).isLt⟩) (sp mi c ⟨(j 0).val, (j 0).isLt⟩ + Cert.Spec.eps)

/-- What the second result array ends holding. -/
def minima : S4x1x512.Idx → EReal :=
  fun j => mn mi c ⟨(j 0).val, (j 0).isLt⟩ ⟨(j 2).val, (j 2).isLt⟩

/-- What the point after an image's last tile writes back to the first result array. -/
theorem flushed_quotients (t : Fin cfg0.N) (hf : (cfg0.win 3).flush t = true) :
    (dats mi 0 c).flushed 3 t = ((cfg0.win 3).blk t).view.read (Elt Ideal) (quotients mi c) := by
  have h31 : t.val % 32 = 31 := (flush0_3 t).mp hf
  show (cfg0.win 3).cut (grid0.coords t) ((dats mi 0 c).after 3 t) = _
  rw [after0_3]
  funext y
  have hy : y = ix3 (0 : Fin 1) (0 : Fin 1) (0 : Fin 1) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  subst hy
  show (outsAt0 mi c t.val t.isLt).1 (ix3 (0 : Fin 1) (0 : Fin 1) (0 : Fin 1))
    = quotients mi c (((cfg0.win 3).blk t).view.emb (ix3 (0 : Fin 1) (0 : Fin 1) (0 : Fin 1)))
  rw [Inv.quotient_block mi c t]
  unfold quotients
  obtain ⟨-, -, -, -, -, -, -, -, -, -, e0, -⟩ := idx_facts t
  have hb : (⟨t.val / 32, lt_four t⟩ : Fin 4)
      = ⟨((((cfg0.win 3).blk t).view.emb (ix3 (0 : Fin 1) (0 : Fin 1) (0 : Fin 1))) 0).val,
          ((((cfg0.win 3).blk t).view.emb (ix3 (0 : Fin 1) (0 : Fin 1) (0 : Fin 1))) 0).isLt⟩ :=
    Fin.ext (by show t.val / 32 = win0_3.index t (0 : Fin 3) * 1 + 1 * 0; rw [e0]; omega)
  exact congr (congrArg Ideal.div (Cert.Spec.accSW_congr _ _ _ _ _ hb h31))
    (congrArg (· + Cert.Spec.eps) (Cert.Spec.accSP_congr _ _ _ hb h31))

/-- What the point after an image's last tile writes back to the second result array. -/
theorem flushed_minima (t : Fin cfg0.N) (hf : (cfg0.win 4).flush t = true) :
    (dats mi 0 c).flushed 4 t = ((cfg0.win 4).blk t).view.read (Elt Ideal) (minima mi c) := by
  have h31 : t.val % 32 = 31 := (flush0_4 t).mp hf
  show (cfg0.win 4).cut (grid0.coords t) ((dats mi 0 c).after 4 t) = _
  rw [after0_4]
  funext y
  obtain ⟨g, rfl⟩ : ∃ g : Fin 512, y = ix3 (0 : Fin 1) (0 : Fin 1) g :=
    ⟨⟨(y 2).val, (y 2).isLt⟩, funext fun a => Fin.ext (by
      match a with
      | ⟨0, _⟩ => have h : (y 0).val < 1 := (y 0).isLt; show (y 0).val = 0; omega
      | ⟨1, _⟩ => have h : (y 1).val < 1 := (y 1).isLt; show (y 1).val = 0; omega
      | ⟨2, _⟩ => rfl)⟩
  show (outsAt0 mi c t.val t.isLt).2.1 (ix3 (0 : Fin 1) (0 : Fin 1) g)
    = minima mi c (((cfg0.win 4).blk t).view.emb (ix3 (0 : Fin 1) (0 : Fin 1) g))
  rw [Inv.minimum_block mi c t g]
  unfold minima
  obtain ⟨-, -, -, -, -, -, -, -, -, -, -, -, -, e0, -, e2, -⟩ := idx_facts t
  have hb : (⟨t.val / 32, lt_four t⟩ : Fin 4)
      = ⟨((((cfg0.win 4).blk t).view.emb (ix3 (0 : Fin 1) (0 : Fin 1) g)) 0).val,
          ((((cfg0.win 4).blk t).view.emb (ix3 (0 : Fin 1) (0 : Fin 1) g)) 0).isLt⟩ :=
    Fin.ext (by show t.val / 32 = win0_4.index t (0 : Fin 3) * 1 + 1 * 0; rw [e0]; omega)
  have hg : (⟨((((cfg0.win 4).blk t).view.emb (ix3 (0 : Fin 1) (0 : Fin 1) g)) 2).val,
      ((((cfg0.win 4).blk t).view.emb (ix3 (0 : Fin 1) (0 : Fin 1) g)) 2).isLt⟩ : Fin 512) = g :=
    Fin.ext (by show win0_4.index t (2 : Fin 3) * 512 + 1 * g.val = g.val; rw [e2]; omega)
  exact (Cert.Spec.accMN_congr _ _ _ _ _ hb h31 g).trans (congrArg (mn mi c _) hg.symm)

theorem last_tile_lt (b : ℕ) (hb : b < 4) : 32 * b + 31 < cfg0.N := by
  rw [show cfg0.N = 128 from N_0]; omega

/-- Every entry of the first result array is written back by the point after its image's last tile. -/
theorem cover_quotients (i : S4x1x1.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 1 := (i 2).isLt
  obtain ⟨t, ht⟩ : ∃ t : Fin cfg0.N, t.val = 32 * (i 0).val + 31 := ⟨⟨_, last_tile_lt _ h0⟩, rfl⟩
  refine ⟨t, (flush0_3 t).mpr (by rw [ht]; omega), ?_⟩
  obtain ⟨-, -, -, -, -, -, -, -, -, -, e0, e1, e2, -⟩ := idx_facts t
  show i ∈ ((View.whole main_v8_0).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 1 ≤ (i 2).val ∧ (i 2).val < win0_3.index t (2 : Fin 3) * 1 + 1
    rw [e2]; omega

/-- Every entry of the second result array likewise. -/
theorem cover_minima (i : S4x1x512.Idx) :
    ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 512 := (i 2).isLt
  obtain ⟨t, ht⟩ : ∃ t : Fin cfg0.N, t.val = 32 * (i 0).val + 31 := ⟨⟨_, last_tile_lt _ h0⟩, rfl⟩
  refine ⟨t, (flush0_4 t).mpr (by rw [ht]; omega), ?_⟩
  obtain ⟨-, -, -, -, -, -, -, -, -, -, -, -, -, e0, e1, e2, -⟩ := idx_facts t
  show i ∈ ((View.whole main_v8_1).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 512 ≤ (i 2).val ∧ (i 2).val < win0_4.index t (2 : Fin 3) * 512 + 512
    rw [e2]; omega

/-- The first result array after the run. -/
theorem final_quotients : (dats mi 0 c).arrAt 3 cfg0.N = quotients mi c :=
  (dats mi 0 c).arrAt_eq_of_cover 3 (quotients mi c) (flushed_quotients mi c) (cover_quotients)

/-- The second result array after the run. -/
theorem final_minima : (dats mi 0 c).arrAt 4 cfg0.N = minima mi c :=
  (dats mi 0 c).arrAt_eq_of_cover 4 (minima mi c) (flushed_minima mi c) (cover_minima)

/-! ## The operations after the call, and the run -/

/-- The program's result: the operations after the call applied to the two result arrays. -/
theorem tail_value :
    Pipeline.afterTail₀ cfgs (dats mi) 0 (V0 mi) [hostOps1] c main_v18
      = fun _ => Cert.Spec.result (sw mi c) (sp mi c) (mn mi c) := by
  unfold Pipeline.afterTail₀
  show StableHlo.after hostOps1 _ (Proc.devRef .tc main_v18) = _
  after_results
  have h3 : Pipeline.withArrays (cfgs 0).spec c (V0 mi c) (fun w => (dats mi 0 c).arrAt w (cfgs 0).N) (Proc.devRef .tc main_v8_0)
      = quotients mi c :=
    (Pipeline.withArrays_arr spec0 launch0.win.arr_inj c _ _ 3).trans (final_quotients mi c)
  have h4 : Pipeline.withArrays (cfgs 0).spec c (V0 mi c) (fun w => (dats mi 0 c).arrAt w (cfgs 0).N) (Proc.devRef .tc main_v8_1)
      = minima mi c :=
    (Pipeline.withArrays_arr spec0 launch0.win.arr_inj c _ _ 4).trans (final_minima mi c)
  show HostTail.tail
      (Pipeline.withArrays (cfgs 0).spec c (V0 mi c) (fun w => (dats mi 0 c).arrAt w (cfgs 0).N) (Proc.devRef .tc main_v8_0))
      (Pipeline.withArrays (cfgs 0).spec c (V0 mi c) (fun w => (dats mi 0 c).arrAt w (cfgs 0).N) (Proc.devRef .tc main_v8_1)) = _
  rw [h3, h4]
  exact HostTail.tail_eq (quotients mi c) (minima mi c) (sw mi c) (sp mi c) (mn mi c) (fun b => rfl) (fun b g => rfl)

/-- THE RUN, READ: every weakly fair execution of the kernel program ends with its result at the specification's
    result over the tiled arrangement, and its two arguments unchanged. -/
theorem run : θ_run defs (onTc (τ := τ) (main (F := Ideal))) ⟨mi, fun _ => 0, ρ⟩ fun r => ∀ c : Dev nD,
      r.2.mem ((c.tc : Thread nD τ).loc main_v18) = (fun _ => Cert.Spec.result (sw mi c) (sp mi c) (mn mi c))
      ∧ r.2.mem ((c.tc : Thread nD τ).loc main_arg0) = mi ((c.tc : Thread nD τ).loc main_arg0)
      ∧ r.2.mem ((c.tc : Thread nD τ).loc main_arg1) = mi ((c.tc : Thread nD τ).loc main_arg1) :=
  (θ_run defs _ _).mono (fun _ h c =>
    ⟨((h c).2 main_v18 (Pipeline.mem_restRefs_of main_v18 (by decide) (by decide))).trans (tail_value mi c),
     ((h c).2 main_arg0 (Pipeline.mem_restRefs_of main_arg0 (by decide) (by decide))).trans (W_main_arg0 mi (dats mi) c),
     ((h c).2 main_arg1 (Pipeline.mem_restRefs_of main_arg1 (by decide) (by decide))).trans (W_main_arg1 mi (dats mi) c)⟩)
    (run_main mi ρ)

end Cert.KernelIdeal.KValue

end
-- ==== Proof.RefValue.lean ====
/-
  The reference program's result, read stage by stage, is the value the specification states over the flat
  arrangement of the pixels.

  Pixel `n` of an image (65536 per image, in row-major order) has the coordinates `(n / 256, n % 256)`: the program builds
  them from two counters joined on a new last axis, and reads them, and the integer points, as real numbers. The squared
  distance from pixel `n` to point `g` is expanded as |x|² + |y|² − 2⟨y, x⟩ — two sums from zero of two squares and a two-term
  inner product —, clamped at zero and rooted: `Cert.Spec.distR`. Its minimum from +∞ over the points is
  `Cert.Spec.minDistR`; the weighted distance (1 − p) · M + p · d is `Cert.Spec.wdistR` and its minimum from +∞ over the
  pixels `Cert.Spec.mnR`; the two sums over the pixels are `Cert.Spec.swR` and `Cert.Spec.spR`. The scalar tail — a quotient
  per image, then two means, each a sum from zero followed by a quotient — is `Cert.Spec.result`.

  Each lemma below states one stage, or a short group of stages, at explicit coordinates; `ref_eq` puts them together.
-/
import proofs.«167800_j19816979104533_2_alg».proof.Proof.Spec
import proofs.«167800_j19816979104533_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A word below 256 read as a signed integer is itself. -/
theorem toInt_ofNat_small (k : Nat) (hk : k < 256) : (BitVec.ofNat 32 k).toInt = (k : Int) := by
  have h1 : (BitVec.ofNat 32 k).toNat = k := by
    rw [BitVec.toNat_ofNat]; omega
  rw [BitVec.toInt_eq_toNat_of_lt (by rw [h1]; omega), h1]

/-- The joined coordinate pairs at `(h, w, 0)`: the row counter `h` as a word. -/
theorem v6_apply0 (h w : Fin 256) :
    val_main_v6 (F := Ideal) (ix3 h w (0 : Fin 2)) = BitVec.ofNat 32 h.val := by
  unfold val_main_v6
  refine (concatenate_pair_apply_left (t := S256x256x2) (s₁ := S256x256x1) (s₂ := S256x256x1) (2 : Fin 3) _ _ _ (ix3 h w (0 : Fin 2)) rfl (ix3 h w (0 : Fin 1)) (fun b => ?_)).trans ?_
  · match b with
    | ⟨0, _⟩ => rfl
    | ⟨1, _⟩ => rfl
    | ⟨2, _⟩ => rfl
  · rw [val_main_v4_apply, val_main_v2_apply, val_main_v0_apply]

/-- The joined coordinate pairs at `(h, w, 1)`: the column counter `w` as a word. -/
theorem v6_apply1 (h w : Fin 256) :
    val_main_v6 (F := Ideal) (ix3 h w (1 : Fin 2)) = BitVec.ofNat 32 w.val := by
  unfold val_main_v6
  refine (concatenate_pair_apply_right (t := S256x256x2) (s₁ := S256x256x1) (s₂ := S256x256x1) (2 : Fin 3) _ _ _ (ix3 h w (1 : Fin 2)) rfl rfl (ix3 h w (0 : Fin 1)) (fun b hb => ?_) rfl).trans ?_
  · match b with
    | ⟨0, _⟩ => rfl
    | ⟨1, _⟩ => rfl
    | ⟨2, _⟩ => exact absurd rfl hb
  · rw [val_main_v5_apply, val_main_v3_apply, val_main_v1_apply]

/-- Pixel `n`'s first coordinate as a float is its row `n / 256`. -/
theorem locs_apply0 (n : Fin 65536) :
    val_main_v8 (F := Ideal) (ix2 n (0 : Fin 2)) = ((Cert.Spec.coord (Cert.Spec.hOf n) : ℝ) : EReal) := by
  have hi : idx_main_v7 (ix2 n (0 : Fin 2)) = ix3 (Cert.Spec.hOf n) (Cert.Spec.wOf n) (0 : Fin 2) :=
    funext fun a => Fin.ext (by
      have hn := n.isLt
      match a with
      | ⟨0, _⟩ => show (n.val * 2 + 0) / 512 = n.val / 256; omega
      | ⟨1, _⟩ => show (n.val * 2 + 0) / 2 % 256 = n.val % 256; omega
      | ⟨2, _⟩ => show (n.val * 2 + 0) % 2 = 0; omega)
  rw [val_main_v8_apply, val_main_v7_apply, hi, v6_apply0]
  show (((BitVec.ofNat 32 (Cert.Spec.hOf n).val).toInt : ℝ) : EReal) = _
  rw [toInt_ofNat_small _ (Cert.Spec.hOf n).isLt, Int.cast_natCast]
  rfl

/-- Pixel `n`'s second coordinate as a float is its column `n % 256`. -/
theorem locs_apply1 (n : Fin 65536) :
    val_main_v8 (F := Ideal) (ix2 n (1 : Fin 2)) = ((Cert.Spec.coord (Cert.Spec.wOf n) : ℝ) : EReal) := by
  have hi : idx_main_v7 (ix2 n (1 : Fin 2)) = ix3 (Cert.Spec.hOf n) (Cert.Spec.wOf n) (1 : Fin 2) :=
    funext fun a => Fin.ext (by
      have hn := n.isLt
      match a with
      | ⟨0, _⟩ => show (n.val * 2 + 1) / 512 = n.val / 256; omega
      | ⟨1, _⟩ => show (n.val * 2 + 1) / 2 % 256 = n.val % 256; omega
      | ⟨2, _⟩ => show (n.val * 2 + 1) % 2 = 1; omega)
  rw [val_main_v8_apply, val_main_v7_apply, hi, v6_apply1]
  show (((BitVec.ofNat 32 (Cert.Spec.wOf n).val).toInt : ℝ) : EReal) = _
  rw [toInt_ofNat_small _ (Cert.Spec.wOf n).isLt, Int.cast_natCast]
  rfl

/-- A point's first coordinate as a float. -/
theorem gt_apply0 (x1 : (⟨S4x512x2, .i32⟩ : BufTy).Contents (Elt Ideal)) (b : Fin 4) (g : Fin 512) :
    val_main_v9 (F := Ideal) x1 (ix3 b g (0 : Fin 2)) = ((Cert.Spec.gxOf x1 b g : ℝ) : EReal) := rfl

/-- A point's second coordinate as a float. -/
theorem gt_apply1 (x1 : (⟨S4x512x2, .i32⟩ : BufTy).Contents (Elt Ideal)) (b : Fin 4) (g : Fin 512) :
    val_main_v9 (F := Ideal) x1 (ix3 b g (1 : Fin 2)) = ((Cert.Spec.gyOf x1 b g : ℝ) : EReal) := rfl

/-- The squared norm of pixel `n`: the sum from zero of its squared coordinates. -/
theorem x2_apply (n : Fin 65536) :
    val_main_v11 (F := Ideal) (ix1 n)
      = ((Cert.Spec.coord (Cert.Spec.hOf n) : ℝ) : EReal) * ((Cert.Spec.coord (Cert.Spec.hOf n) : ℝ) : EReal)
        + ((Cert.Spec.coord (Cert.Spec.wOf n) : ℝ) : EReal) * ((Cert.Spec.coord (Cert.Spec.wOf n) : ℝ) : EReal) := by
  have hi : ∀ k : Fin 2, idx_main_v11 (ix1 n) k = ix2 n k := fun k =>
    funext fun a => by match a with | ⟨0, _⟩ => rfl | ⟨1, _⟩ => rfl
  rw [val_main_v11_apply, Fin.sum_univ_two, val_main_cst_apply, hi, hi]
  simp only [val_main_v10_apply, locs_apply0, locs_apply1, Ideal.mulf_def, Ideal.ofBits_def, Cert.Spec.zero_eq, zero_add]

/-- The squared norm of point `g` of image `b`. -/
theorem y2_apply (x1 : (⟨S4x512x2, .i32⟩ : BufTy).Contents (Elt Ideal)) (b : Fin 4) (g : Fin 512) :
    val_main_v14 (F := Ideal) x1 (ix2 b g)
      = ((Cert.Spec.gxOf x1 b g : ℝ) : EReal) * ((Cert.Spec.gxOf x1 b g : ℝ) : EReal)
        + ((Cert.Spec.gyOf x1 b g : ℝ) : EReal) * ((Cert.Spec.gyOf x1 b g : ℝ) : EReal) := by
  have hi : ∀ k : Fin 2, idx_main_v14 (ix2 b g) k = ix3 b g k := fun k =>
    funext fun a => by match a with | ⟨0, _⟩ => rfl | ⟨1, _⟩ => rfl | ⟨2, _⟩ => rfl
  rw [val_main_v14_apply, Fin.sum_univ_two, val_main_cst_0_apply, hi, hi]
  simp only [val_main_v13_apply, gt_apply0, gt_apply1, Ideal.mulf_def, Ideal.ofBits_def, Cert.Spec.zero_eq, zero_add]

/-- The inner product of point `g` of image `b` with pixel `n`. -/
theorem xy_apply (x1 : (⟨S4x512x2, .i32⟩ : BufTy).Contents (Elt Ideal)) (b : Fin 4) (g : Fin 512) (n : Fin 65536) :
    val_main_v16 (F := Ideal) x1 (ix3 b g n)
      = ((Cert.Spec.gxOf x1 b g : ℝ) : EReal) * ((Cert.Spec.coord (Cert.Spec.hOf n) : ℝ) : EReal)
        + ((Cert.Spec.gyOf x1 b g : ℝ) : EReal) * ((Cert.Spec.coord (Cert.Spec.wOf n) : ℝ) : EReal) := by
  have hl : ∀ k : Fin 2, lidx_main_v16 (ix3 b g n) k = ix3 b g k := fun k =>
    funext fun a => by match a with | ⟨0, _⟩ => rfl | ⟨1, _⟩ => rfl | ⟨2, _⟩ => rfl
  have hr : ∀ k : Fin 2, ridx_main_v16 (ix3 b g n) k = ix2 n k := fun k =>
    funext fun a => by match a with | ⟨0, _⟩ => rfl | ⟨1, _⟩ => rfl
  rw [val_main_v16_apply, Fin.sum_univ_two, hl, hl, hr, hr, gt_apply0, gt_apply1, locs_apply0, locs_apply1]

/-- The distance from pixel `n` to point `g` of image `b`, in the expanded and clamped form. -/
theorem d_apply (x1 : (⟨S4x512x2, .i32⟩ : BufTy).Contents (Elt Ideal)) (b : Fin 4) (n : Fin 65536) (g : Fin 512) :
    val_main_v26 (F := Ideal) x1 (ix3 b n g) = Cert.Spec.distR (Cert.Spec.gxOf x1) (Cert.Spec.gyOf x1) b n g := by
  have h18 : idx_main_v12 (idx_main_v18 (ix3 b n g)) = ix1 n :=
    funext fun a => by match a with | ⟨0, _⟩ => rfl
  have h19 : idx_main_v15 (idx_main_v19 (ix3 b n g)) = ix2 b g :=
    funext fun a => by match a with | ⟨0, _⟩ => rfl | ⟨1, _⟩ => rfl
  have h17 : idx_main_v17 (ix3 b n g) = ix3 b g n :=
    funext fun a => by match a with | ⟨0, _⟩ => rfl | ⟨1, _⟩ => rfl | ⟨2, _⟩ => rfl
  rw [val_main_v26_apply, val_main_v25_apply, val_main_v24_apply, val_main_cst_2_apply, val_main_v23_apply,
    val_main_v20_apply, val_main_v18_apply, val_main_v12_apply, h18, x2_apply,
    val_main_v19_apply, val_main_v15_apply, h19, y2_apply,
    val_main_v22_apply, val_main_v21_apply, val_main_cst_1_apply, val_main_v17_apply, h17, xy_apply]
  simp only [Ideal.hostUnary_sqrt_def, Ideal.maximumf_def, Ideal.subf_def, Ideal.addf_def, Ideal.mulf_def,
    Ideal.ofBits_def, Cert.Spec.zero_eq, Cert.Spec.two_eq]
  rfl

/-- The probability of pixel `n` of image `b`: the flat array at `(b, n)` is the map at row `n / 256`, column `n % 256`. -/
theorem p_apply (x0 : (⟨S4x256x256, .f32⟩ : BufTy).Contents (Elt Ideal)) (b : Fin 4) (n : Fin 65536) :
    val_main_v27 (F := Ideal) x0 (ix2 b n) = Cert.Spec.pOf x0 b (Cert.Spec.hOf n) (Cert.Spec.wOf n) := by
  have hi : idx_main_v27 (ix2 b n) = ix3 b (Cert.Spec.hOf n) (Cert.Spec.wOf n) :=
    funext fun a => Fin.ext (by
      have hn := n.isLt
      have hb := b.isLt
      match a with
      | ⟨0, _⟩ => show (b.val * 65536 + n.val) / 65536 = b.val; omega
      | ⟨1, _⟩ => show (b.val * 65536 + n.val) / 256 % 256 = n.val / 256; omega
      | ⟨2, _⟩ => show (b.val * 65536 + n.val) % 256 = n.val % 256; omega)
  rw [val_main_v27_apply, hi]
  rfl

/-- The distance from pixel `n` of image `b` to the nearest point: the minimum from +∞ over the points. -/
theorem minD_apply (x1 : (⟨S4x512x2, .i32⟩ : BufTy).Contents (Elt Ideal)) (b : Fin 4) (n : Fin 65536) :
    val_main_v29 (F := Ideal) x1 (ix2 b n) = Cert.Spec.minDistR (Cert.Spec.gxOf x1) (Cert.Spec.gyOf x1) b n := by
  have h : S4x65536x512.Reduces [2] S4x65536 := by decide
  have hf : (val_main_v26 (F := Ideal) x1 ∘ h.lift (ix2 b n))
      = fun g : Fin 512 => Cert.Spec.distR (Cert.Spec.gxOf x1) (Cert.Spec.gyOf x1) b n g := funext fun g => by
    have hl : h.lift (ix2 b n) g = ix3 b n (⟨g.val, g.isLt⟩ : Fin 512) :=
      funext fun c => Fin.ext (by match c with | ⟨0, _⟩ => rfl | ⟨1, _⟩ => rfl | ⟨2, _⟩ => rfl)
    show val_main_v26 (F := Ideal) x1 (h.lift (ix2 b n) g) = _
    rw [hl, d_apply]
    rfl
  unfold val_main_v29
  generalize val_main_v26 (F := Ideal) x1 = y at hf ⊢
  refine (Host.reduce_eq_fold_single (α := Ideal .f32) (FloatOps.minimumf (F := Ideal) (φ := .f32)) y (val_main_cst_4 (F := Ideal)) reducesTo_S4x65536x512_S4x65536_d2 h h_S_ (ix2 b n)).trans ?_
  rw [val_main_cst_4_apply, Ideal.ofBits_def, Cert.Spec.top_eq]
  unfold Cert.Spec.minDistR
  exact congrArg (fun f => Finset.fold min (⊤ : EReal) f (Finset.univ : Finset (Fin 512))) hf

/-- The weighted sum of nearest-point distances over the pixels of image `b` (the sum from zero, the zero dropped). -/
theorem sw_apply (x0 : (⟨S4x256x256, .f32⟩ : BufTy).Contents (Elt Ideal)) (x1 : (⟨S4x512x2, .i32⟩ : BufTy).Contents (Elt Ideal))
    (b : Fin 4) :
    val_main_v31 (F := Ideal) x0 x1 (ix1 b)
      = Cert.Spec.swR (Cert.Spec.pOf x0) (Cert.Spec.gxOf x1) (Cert.Spec.gyOf x1) b := by
  have hi : ∀ n : Fin 65536, idx_main_v31 (ix1 b) n = ix2 b n := fun n =>
    funext fun a => by match a with | ⟨0, _⟩ => rfl | ⟨1, _⟩ => rfl
  rw [val_main_v31_apply, val_main_cst_5_apply, Ideal.ofBits_def, Cert.Spec.zero_eq, zero_add]
  unfold Cert.Spec.swR
  refine Finset.sum_congr rfl fun n _ => ?_
  rw [hi, val_main_v30_apply, p_apply, minD_apply]
  rfl

/-- The total weight of image `b` (the sum from zero, the zero dropped). -/
theorem sp_apply (x0 : (⟨S4x256x256, .f32⟩ : BufTy).Contents (Elt Ideal)) (b : Fin 4) :
    val_main_v28 (F := Ideal) x0 (ix1 b) = Cert.Spec.spR (Cert.Spec.pOf x0) b := by
  have hi : ∀ n : Fin 65536, idx_main_v28 (ix1 b) n = ix2 b n := fun n =>
    funext fun a => by match a with | ⟨0, _⟩ => rfl | ⟨1, _⟩ => rfl
  rw [val_main_v28_apply, val_main_cst_3_apply, Ideal.ofBits_def, Cert.Spec.zero_eq, zero_add]
  unfold Cert.Spec.spR
  refine Finset.sum_congr rfl fun n _ => ?_
  rw [hi, p_apply]

/-- The first term of image `b`: the weighted sum over the total weight plus the guard. -/
theorem term1_apply (x0 : (⟨S4x256x256, .f32⟩ : BufTy).Contents (Elt Ideal)) (x1 : (⟨S4x512x2, .i32⟩ : BufTy).Contents (Elt Ideal))
    (b : Fin 4) :
    val_main_v34 (F := Ideal) x0 x1 (ix1 b)
      = Ideal.div (Cert.Spec.swR (Cert.Spec.pOf x0) (Cert.Spec.gxOf x1) (Cert.Spec.gyOf x1) b)
          (Cert.Spec.spR (Cert.Spec.pOf x0) b + Cert.Spec.eps) := by
  rw [val_main_v34_apply, val_main_v33_apply, val_main_v32_apply, val_main_cst_6_apply, sw_apply, sp_apply]
  rfl

/-- The weighted distance of pixel `n` to point `g`: far where the probability is 0, the distance where it is 1. -/
theorem wd_apply (x0 : (⟨S4x256x256, .f32⟩ : BufTy).Contents (Elt Ideal)) (x1 : (⟨S4x512x2, .i32⟩ : BufTy).Contents (Elt Ideal))
    (b : Fin 4) (n : Fin 65536) (g : Fin 512) :
    val_main_v44 (F := Ideal) x0 x1 (ix3 b n g)
      = Cert.Spec.wdistR (Cert.Spec.pOf x0) (Cert.Spec.gxOf x1) (Cert.Spec.gyOf x1) b n g := by
  have h37 : idx_main_v37 (idx_main_v43 (ix3 b n g)) = ix2 b n :=
    funext fun a => by match a with | ⟨0, _⟩ => rfl | ⟨1, _⟩ => rfl
  have h40 : idx_main_v40 (idx_main_v41 (ix3 b n g)) = ix2 b n :=
    funext fun a => by match a with | ⟨0, _⟩ => rfl | ⟨1, _⟩ => rfl
  rw [val_main_v44_apply, val_main_v43_apply, val_main_v39_apply, val_main_v37_apply, val_main_v36_apply,
    val_main_v35_apply, val_main_cst_7_apply, val_main_v38_apply, val_main_cst_8_apply,
    val_main_v42_apply, val_main_v41_apply, val_main_v40_apply, h37, h40, p_apply, d_apply]
  simp only [Ideal.addf_def, Ideal.subf_def, Ideal.mulf_def, Ideal.ofBits_def, Cert.Spec.one_eq]
  rfl

/-- The least weighted distance to point `g` over the pixels of image `b`: the minimum from +∞ over the pixels. -/
theorem t2_apply (x0 : (⟨S4x256x256, .f32⟩ : BufTy).Contents (Elt Ideal)) (x1 : (⟨S4x512x2, .i32⟩ : BufTy).Contents (Elt Ideal))
    (b : Fin 4) (g : Fin 512) :
    val_main_v45 (F := Ideal) x0 x1 (ix2 b g)
      = Cert.Spec.mnR (Cert.Spec.pOf x0) (Cert.Spec.gxOf x1) (Cert.Spec.gyOf x1) b g := by
  have h : S4x65536x512.Reduces [1] S4x512 := by decide
  have hf : (val_main_v44 (F := Ideal) x0 x1 ∘ h.lift (ix2 b g))
      = fun n : Fin 65536 => Cert.Spec.wdistR (Cert.Spec.pOf x0) (Cert.Spec.gxOf x1) (Cert.Spec.gyOf x1) b n g :=
    funext fun n => by
      have hl : h.lift (ix2 b g) n = ix3 b (⟨n.val, n.isLt⟩ : Fin 65536) g :=
        funext fun c => Fin.ext (by match c with | ⟨0, _⟩ => rfl | ⟨1, _⟩ => rfl | ⟨2, _⟩ => rfl)
      show val_main_v44 (F := Ideal) x0 x1 (h.lift (ix2 b g) n) = _
      rw [hl, wd_apply]
      rfl
  unfold val_main_v45
  generalize val_main_v44 (F := Ideal) x0 x1 = y at hf ⊢
  refine (Host.reduce_eq_fold_single (α := Ideal .f32) (FloatOps.minimumf (F := Ideal) (φ := .f32)) y (val_main_cst_9 (F := Ideal)) reducesTo_S4x65536x512_S4x512_d1 h h_S_ (ix2 b g)).trans ?_
  rw [val_main_cst_9_apply, Ideal.ofBits_def, Cert.Spec.top_eq]
  unfold Cert.Spec.mnR
  exact congrArg (fun f => Finset.fold min (⊤ : EReal) f (Finset.univ : Finset (Fin 65536))) hf

/-- The second term of image `b`: the sum from zero over the points of the least weighted distances, over 512. -/
theorem term2_apply (x0 : (⟨S4x256x256, .f32⟩ : BufTy).Contents (Elt Ideal)) (x1 : (⟨S4x512x2, .i32⟩ : BufTy).Contents (Elt Ideal))
    (b : Fin 4) :
    val_main_v48 (F := Ideal) x0 x1 (ix1 b)
      = Ideal.div (0 + ∑ g : Fin 512, Cert.Spec.mnR (Cert.Spec.pOf x0) (Cert.Spec.gxOf x1) (Cert.Spec.gyOf x1) b g)
          Cert.Spec.c512 := by
  have hi : ∀ g : Fin 512, idx_main_v46 (ix1 b) g = ix2 b g := fun g =>
    funext fun a => by match a with | ⟨0, _⟩ => rfl | ⟨1, _⟩ => rfl
  rw [val_main_v48_apply, val_main_v47_apply, val_main_cst_11_apply, val_main_v46_apply, val_main_cst_10_apply,
    Ideal.ofBits_def, Cert.Spec.zero_eq]
  have hs : ∑ g : Fin 512, val_main_v45 (F := Ideal) x0 x1 (idx_main_v46 (ix1 b) g)
      = ∑ g : Fin 512, Cert.Spec.mnR (Cert.Spec.pOf x0) (Cert.Spec.gxOf x1) (Cert.Spec.gyOf x1) b g :=
    Finset.sum_congr rfl fun g _ => by rw [hi, t2_apply]
  rw [hs]
  rfl

/-- A sum over the indices of a one-axis array is the sum over the axis. -/
theorem sum_idx1 {n : Nat} (f : (⟨1, ![n]⟩ : Shape).Idx → EReal) : ∑ j, f j = ∑ a : Fin n, f (ix1 a) := by
  let e : (⟨1, ![n]⟩ : Shape).Idx ≃ Fin n :=
    { toFun := fun j => j 0, invFun := fun a => ix1 a, left_inv := fun j => (eq_ix1 j).symm, right_inv := fun _ => rfl }
  rw [← Equiv.sum_comp e.symm f]
  rfl

/-- The reference's result is the specification's result over the flat (65536-pixel) arrangement. -/
theorem ref_eq (x0 : (⟨S4x256x256, .f32⟩ : BufTy).Contents (Elt Ideal)) (x1 : (⟨S4x512x2, .i32⟩ : BufTy).Contents (Elt Ideal)) :
    val_main_v53 (F := Ideal) x0 x1
      = fun _ => Cert.Spec.result
          (Cert.Spec.swR (Cert.Spec.pOf x0) (Cert.Spec.gxOf x1) (Cert.Spec.gyOf x1))
          (Cert.Spec.spR (Cert.Spec.pOf x0))
          (Cert.Spec.mnR (Cert.Spec.pOf x0) (Cert.Spec.gxOf x1) (Cert.Spec.gyOf x1)) := by
  funext i
  rw [val_main_v53_apply, val_main_v50_apply, val_main_v52_apply, val_main_v49_apply, val_main_v51_apply,
    val_main_cst_12_apply, val_main_cst_13_apply, val_main_cst_14_apply, val_main_cst_15_apply,
    sum_idx1 (val_main_v34 (F := Ideal) x0 x1), sum_idx1 (val_main_v48 (F := Ideal) x0 x1)]
  simp only [term1_apply, term2_apply, Ideal.addf_def, Ideal.hostDivf_def, Ideal.ofBits_def, Cert.Spec.zero_eq]
  rfl

end Cert.ReferenceIdeal.RefValue

end
-- ==== Proof.Algebra.lean ====
/-
  The three arrangements of the score are one value.

  The specification states the per-image quantities three times: pixel by pixel (SW, SP, MN), tile by
  tile with running sums and a running minimum (accSW, accSP, accMN over 32 tiles of 8 rows), and over
  the 65536 pixels of an image in row-major order (swR, spR, mnR), where the squared distance is
  expanded as |x|² + |y|² − 2⟨y, x⟩ and clamped at zero, and the weighted distance is written
  (1 − p) · M + p · dist. This module proves that the second and the third arrangement equal the first.

  Two facts carry the proof. Pointwise, all coordinates are real numbers, so the expanded square is
  the sum of the two squared differences, which is nonnegative: the clamp is the identity, and for a
  real weight p the two forms of the weighted distance agree by distributivity in ℝ. Globally, a sum
  (or a least value) over a finite index set does not depend on how the set is enumerated: a row is a
  pair (tile, row in tile) through h = 8 i + r, and a flat pixel is a pair (row, column) through
  n = 256 h + w.
-/
import proofs.«167800_j19816979104533_2_alg».proof.Proof.Spec

noncomputable section

namespace Cert.Spec

open Idealize.ShloMosaic

/-! ## Least values as infima, and their re-indexing -/

/-- A running minimum started at `⊤` over a finite set is the infimum over that set. -/
theorem fold_min_eq_inf {ι : Type*} (s : Finset ι) (f : ι → EReal) :
    s.fold min ⊤ f = s.inf f := rfl

/-- An infimum over all of `κ` may be taken over `ι` along a bijection `ι ≃ κ`. -/
theorem inf_univ_equiv {ι κ : Type*} [Fintype ι] [Fintype κ] (e : ι ≃ κ) (f : κ → EReal) :
    (Finset.univ : Finset κ).inf f = (Finset.univ : Finset ι).inf (fun i => f (e i)) := by
  rw [← Finset.map_univ_equiv e, Finset.inf_map]
  rfl

/-- An infimum over all pairs is the infimum over the first component of the infimum over the second. -/
theorem inf_univ_prod {ι κ : Type*} [Fintype ι] [Fintype κ] (f : ι × κ → EReal) :
    (Finset.univ : Finset (ι × κ)).inf f
      = (Finset.univ : Finset ι).inf (fun i => (Finset.univ : Finset κ).inf (fun k => f (i, k))) := by
  rw [← Finset.univ_product_univ, Finset.inf_product_left]

/-! ## Rows as (tile, row in tile), pixels as (row, column) -/

/-- Row `h` is row `h % 8` of tile `h / 8`: the map `(i, r) ↦ 8 i + r` is a bijection onto the 256 rows. -/
def rowEquiv : Fin 32 × Fin 8 ≃ Fin 256 where
  toFun x := hrow x.1 x.2
  invFun h := (⟨h.val / 8, by omega⟩, ⟨h.val % 8, by omega⟩)
  left_inv := by
    rintro ⟨i, r⟩
    simp only [hrow]
    refine Prod.ext (Fin.ext ?_) (Fin.ext ?_)
    · show (8 * i.val + r.val) / 8 = i.val
      omega
    · show (8 * i.val + r.val) % 8 = r.val
      omega
  right_inv := by
    intro h
    refine Fin.ext ?_
    show 8 * (h.val / 8) + h.val % 8 = h.val
    omega

/-- Pixel `n` of the flat order is row `n / 256`, column `n % 256`: the map `(h, w) ↦ 256 h + w` is a
    bijection onto the 65536 pixels, with inverse `n ↦ (hOf n, wOf n)`. -/
def pixEquiv : Fin 256 × Fin 256 ≃ Fin 65536 where
  toFun x := ⟨256 * x.1.val + x.2.val, by omega⟩
  invFun n := (hOf n, wOf n)
  left_inv := by
    rintro ⟨h, w⟩
    refine Prod.ext (Fin.ext ?_) (Fin.ext ?_)
    · show (256 * h.val + w.val) / 256 = h.val
      omega
    · show (256 * h.val + w.val) % 256 = w.val
      omega
  right_inv := by
    intro n
    refine Fin.ext ?_
    show 256 * (n.val / 256) + n.val % 256 = n.val
    omega

/-- A sum over tiles of sums over the rows of the tile is the sum over all rows. -/
theorem sum_tiles (F : Fin 256 → EReal) :
    ∑ i : Fin 32, ∑ r : Fin 8, F (hrow i r) = ∑ h : Fin 256, F h :=
  calc ∑ i : Fin 32, ∑ r : Fin 8, F (hrow i r)
      = ∑ x : Fin 32 × Fin 8, F (hrow x.1 x.2) :=
        (Fintype.sum_prod_type (fun x : Fin 32 × Fin 8 => F (hrow x.1 x.2))).symm
    _ = ∑ h : Fin 256, F h := Fintype.sum_equiv rowEquiv _ _ (fun _ => rfl)

/-- The least value over tiles of the least values over the rows of the tile is the least over all rows. -/
theorem inf_tiles (F : Fin 256 → EReal) :
    (Finset.univ : Finset (Fin 32)).inf (fun i => (Finset.univ : Finset (Fin 8)).inf (fun r => F (hrow i r)))
      = (Finset.univ : Finset (Fin 256)).inf F :=
  calc (Finset.univ : Finset (Fin 32)).inf (fun i => (Finset.univ : Finset (Fin 8)).inf (fun r => F (hrow i r)))
      = (Finset.univ : Finset (Fin 32 × Fin 8)).inf (fun x => F (hrow x.1 x.2)) :=
        (inf_univ_prod (fun x : Fin 32 × Fin 8 => F (hrow x.1 x.2))).symm
    _ = (Finset.univ : Finset (Fin 256)).inf F := (inf_univ_equiv rowEquiv F).symm

/-- A sum over the flat pixels of a function of (row, column) is the double sum over rows and columns. -/
theorem sum_pixels (F : Fin 256 → Fin 256 → EReal) :
    ∑ n : Fin 65536, F (hOf n) (wOf n) = ∑ h : Fin 256, ∑ w : Fin 256, F h w :=
  calc ∑ n : Fin 65536, F (hOf n) (wOf n)
      = ∑ x : Fin 256 × Fin 256, F x.1 x.2 :=
        Fintype.sum_equiv pixEquiv.symm _ _ (fun _ => rfl)
    _ = ∑ h : Fin 256, ∑ w : Fin 256, F h w :=
        Fintype.sum_prod_type (fun x : Fin 256 × Fin 256 => F x.1 x.2)

/-- The least value over the flat pixels of a function of (row, column) is the least over rows of the
    least over columns. -/
theorem inf_pixels (F : Fin 256 → Fin 256 → EReal) :
    (Finset.univ : Finset (Fin 65536)).inf (fun n => F (hOf n) (wOf n))
      = (Finset.univ : Finset (Fin 256)).inf (fun h => (Finset.univ : Finset (Fin 256)).inf (fun w => F h w)) :=
  calc (Finset.univ : Finset (Fin 65536)).inf (fun n => F (hOf n) (wOf n))
      = (Finset.univ : Finset (Fin 256 × Fin 256)).inf (fun x => F x.1 x.2) :=
        (inf_univ_equiv pixEquiv.symm (fun x : Fin 256 × Fin 256 => F x.1 x.2)).symm
    _ = (Finset.univ : Finset (Fin 256)).inf (fun h => (Finset.univ : Finset (Fin 256)).inf (fun w => F h w)) :=
        inf_univ_prod (fun x : Fin 256 × Fin 256 => F x.1 x.2)

/-! ## The tiles up to a given one -/

/-- The tiles `0, …, k`. -/
def upto (k : ℕ) : Finset (Fin 32) := Finset.univ.filter (fun i => i.val ≤ k)

/-- Tile `i` is among the tiles up to `k` exactly when `i ≤ k`. -/
theorem mem_upto (k : ℕ) (i : Fin 32) : i ∈ upto k ↔ i.val ≤ k := by
  simp [upto]

/-- Only tile `0` is at most `0`. -/
theorem upto_zero : upto 0 = {(⟨0, by norm_num⟩ : Fin 32)} := by
  ext i
  rw [mem_upto, Finset.mem_singleton, Fin.ext_iff]
  show i.val ≤ 0 ↔ i.val = 0
  omega

/-- The tiles up to `k + 1` are tile `k + 1` together with the tiles up to `k`. -/
theorem upto_succ (k : ℕ) (h : k + 1 < 32) : upto (k + 1) = insert (⟨k + 1, h⟩ : Fin 32) (upto k) := by
  ext i
  rw [Finset.mem_insert, mem_upto, mem_upto, Fin.ext_iff]
  show i.val ≤ k + 1 ↔ i.val = k + 1 ∨ i.val ≤ k
  omega

/-- Tile `k + 1` is not among the tiles up to `k`. -/
theorem not_mem_upto (k : ℕ) (h : k + 1 < 32) : (⟨k + 1, h⟩ : Fin 32) ∉ upto k := by
  rw [mem_upto]
  show ¬ (k + 1 ≤ k)
  omega

/-- The tiles up to the last one are all the tiles. -/
theorem upto_last : upto 31 = Finset.univ := by
  ext i
  rw [mem_upto]
  simp only [Finset.mem_univ, iff_true]
  omega

section

variable (p : Fin 4 → Fin 256 → Fin 256 → EReal) (gx gy : Fin 4 → Fin 512 → ℝ)

/-! ## The running forms are sums and least values over the tiles seen so far -/

/-- The running weighted sum after tile `k` is the sum of the tile sums over tiles `0, …, k`. -/
theorem accSW_eq_sum (b : Fin 4) : ∀ (k : ℕ) (hk : k < 32),
    accSW p gx gy b k hk = ∑ i ∈ upto k, tileSW p gx gy b i := by
  intro k
  induction k with
  | zero =>
    intro hk
    rw [accSW, upto_zero, Finset.sum_singleton]
  | succ k ih =>
    intro hk
    rw [accSW, ih, upto_succ k hk, Finset.sum_insert (not_mem_upto k hk), add_comm]

/-- The running weight after tile `k` is the sum of the tile weights over tiles `0, …, k`. -/
theorem accSP_eq_sum (b : Fin 4) : ∀ (k : ℕ) (hk : k < 32),
    accSP p b k hk = ∑ i ∈ upto k, tileSP p b i := by
  intro k
  induction k with
  | zero =>
    intro hk
    rw [accSP, upto_zero, Finset.sum_singleton]
  | succ k ih =>
    intro hk
    rw [accSP, ih, upto_succ k hk, Finset.sum_insert (not_mem_upto k hk), add_comm]

/-- The running minimum after tile `k` is the least of the tile minima over tiles `0, …, k`. -/
theorem accMN_eq_inf (b : Fin 4) (g : Fin 512) : ∀ (k : ℕ) (hk : k < 32),
    accMN p gx gy b k hk g = (upto k).inf (fun i => tileMN p gx gy b i g) := by
  intro k
  induction k with
  | zero =>
    intro hk
    rw [accMN, upto_zero, Finset.inf_singleton]
  | succ k ih =>
    intro hk
    rw [accMN, upto_succ k hk, Finset.inf_insert, ← ih]
    exact min_comm _ _

/-! ## Pointwise: the expanded, clamped distance is the distance -/

/-- |x|² + |y|² − 2⟨y, x⟩ is the sum of the squared coordinate differences. -/
theorem sq_expand (h w x y : ℝ) :
    (h * h + w * w) + (x * x + y * y) - 2 * (x * h + y * w) = (h - x) * (h - x) + (w - y) * (w - y) := by
  ring

/-- The sum of two squared differences is not negative. -/
theorem sq_sum_nonneg (h w x y : ℝ) : ¬ ((h - x) * (h - x) + (w - y) * (w - y) < 0) :=
  not_lt.mpr (add_nonneg (mul_self_nonneg _) (mul_self_nonneg _))

/-- The expanded square is nonnegative, so clamping it at zero changes nothing: the two distances agree. -/
theorem distR_eq (b : Fin 4) (n : Fin 65536) (g : Fin 512) :
    distR gx gy b n g = dist gx gy b (hOf n) (wOf n) g := by
  unfold distR dist
  simp only [← EReal.coe_mul, ← EReal.coe_add, ← EReal.coe_sub]
  rw [sq_expand, max_eq_left]
  exact EReal.coe_nonneg.mpr (not_lt.mp (sq_sum_nonneg _ _ _ _))

/-- The distance to the nearest point is the same in both forms. -/
theorem minDistR_eq (b : Fin 4) (n : Fin 65536) :
    minDistR gx gy b n = minDist gx gy b (hOf n) (wOf n) := by
  unfold minDistR minDist
  simp only [distR_eq]

/-- The distance is a real number: the root of a nonnegative real. -/
theorem dist_real (b : Fin 4) (h w : Fin 256) (g : Fin 512) :
    ∃ d : ℝ, dist gx gy b h w g = (d : EReal) := by
  unfold dist
  simp only [← EReal.coe_mul, ← EReal.coe_add, ← EReal.coe_sub]
  rw [Ideal.sqrt_coe, if_neg (sq_sum_nonneg _ _ _ _)]
  exact ⟨_, rfl⟩

/-- For real numbers, (1 − r) · m + r · d = m + r · (d − m). -/
theorem lerp_real (r m d : ℝ) :
    (((1 : ℝ) : EReal) - (r : EReal)) * (m : EReal) + (r : EReal) * (d : EReal)
      = (m : EReal) + (r : EReal) * ((d : EReal) - (m : EReal)) := by
  simp only [← EReal.coe_mul, ← EReal.coe_add, ← EReal.coe_sub]
  congr 1
  ring

/-- For a real weight, the two ways of writing the weighted distance agree. -/
theorem wdistR_eq (hp : ∀ b h w, ∃ r : ℝ, p b h w = (r : EReal))
    (b : Fin 4) (n : Fin 65536) (g : Fin 512) :
    wdistR p gx gy b n g = wdist p gx gy b (hOf n) (wOf n) g := by
  unfold wdistR wdist
  rw [distR_eq]
  obtain ⟨r, hr⟩ := hp b (hOf n) (wOf n)
  obtain ⟨m, hm⟩ := M_real
  obtain ⟨d, hd⟩ := dist_real gx gy b (hOf n) (wOf n) g
  rw [hr, hm, hd]
  exact lerp_real r m d

end

/-! ## The six equalities -/

/-- The running weighted sum after the last tile is the pixel-by-pixel weighted sum. -/
theorem accSW_eq (p : Fin 4 → Fin 256 → Fin 256 → EReal) (gx gy : Fin 4 → Fin 512 → ℝ) (b : Fin 4) :
    accSW p gx gy b 31 (by norm_num) = SW p gx gy b := by
  rw [accSW_eq_sum, upto_last]
  unfold tileSW SW
  exact sum_tiles (fun h => ∑ c : Fin 256, p b h c * minDist gx gy b h c)

/-- The running weight after the last tile is the pixel-by-pixel total weight. -/
theorem accSP_eq (p : Fin 4 → Fin 256 → Fin 256 → EReal) (b : Fin 4) :
    accSP p b 31 (by norm_num) = SP p b := by
  rw [accSP_eq_sum, upto_last]
  unfold tileSP SP
  exact sum_tiles (fun h => ∑ c : Fin 256, p b h c)

/-- The running minimum after the last tile is the pixel-by-pixel least weighted distance. -/
theorem accMN_eq (p : Fin 4 → Fin 256 → Fin 256 → EReal) (gx gy : Fin 4 → Fin 512 → ℝ) (b : Fin 4) (g : Fin 512) :
    accMN p gx gy b 31 (by norm_num) g = MN p gx gy b g := by
  rw [accMN_eq_inf, upto_last]
  unfold tileMN MN
  simp only [fold_min_eq_inf]
  exact inf_tiles (fun h => (Finset.univ : Finset (Fin 256)).inf (fun w => wdist p gx gy b h w g))

/-- The weighted sum over the flat pixels is the pixel-by-pixel weighted sum. -/
theorem swR_eq (p : Fin 4 → Fin 256 → Fin 256 → EReal) (gx gy : Fin 4 → Fin 512 → ℝ) (b : Fin 4) :
    swR p gx gy b = SW p gx gy b := by
  unfold swR SW
  simp only [minDistR_eq]
  exact sum_pixels (fun h w => p b h w * minDist gx gy b h w)

/-- The total weight over the flat pixels is the pixel-by-pixel total weight. -/
theorem spR_eq (p : Fin 4 → Fin 256 → Fin 256 → EReal) (b : Fin 4) : spR p b = SP p b := by
  unfold spR SP
  exact sum_pixels (fun h w => p b h w)

/-- For real weights, the least weighted distance over the flat pixels is the pixel-by-pixel one. -/
theorem mnR_eq (p : Fin 4 → Fin 256 → Fin 256 → EReal) (gx gy : Fin 4 → Fin 512 → ℝ)
    (hp : ∀ b h w, ∃ r : ℝ, p b h w = (r : EReal)) (b : Fin 4) (g : Fin 512) :
    mnR p gx gy b g = MN p gx gy b g := by
  unfold mnR MN
  simp only [fold_min_eq_inf, wdistR_eq p gx gy hp]
  exact inf_pixels (fun h w => wdist p gx gy b h w g)

end Cert.Spec

end
-- ==== Proof.Finite.lean ====
/-
  Under the precondition every entry of the probability map is a real number.

  The precondition compares the absolute value of every entry of the map with +∞, strictly, and takes
  the conjunction of all these comparisons, started from "true". If the conjunction is true, so is each
  comparison. The absolute value of an extended real x is max x (−x), which is +∞ at x = +∞ and at
  x = −∞ alike; an entry whose absolute value is strictly below +∞ is therefore neither, and an
  extended real that is neither infinity is a real number.
-/
import proofs.«167800_j19816979104533_2_alg».proof.Proof.Spec
import proofs.«167800_j19816979104533_2_alg».proof.Pre_finite_inputs
import proofs.«167800_j19816979104533_2_alg».proof.Proof.Gen.Pre_finite_inputs
import Idealize.ShloMosaic.Lib.ReduceAll
import Idealize.ShloMosaic.Lib.ValueIdx

noncomputable section

namespace Cert.Spec

open Idealize.ShloMosaic

/-- The strict comparison of two extended reals answers 1 only if the strict inequality holds. -/
theorem lt_of_cmp_olt {a c : EReal} (h : Ideal.cmp .olt a c = 1#1) : a < c := by
  by_contra hn
  have h0 : Ideal.cmp .olt a c = 0#1 := by
    show BitVec.ofBool (decide (a < c)) = 0#1
    rw [decide_eq_false hn]
    rfl
  rw [h0] at h
  exact absurd h (by decide)

/-- An extended real whose absolute value `max x (−x)` is strictly below +∞ is a real number: at −∞ the
    second term is +∞, at +∞ the first is. -/
theorem real_of_abs_lt_top (x : EReal) (h : max x (-x) < ⊤) : ∃ r : ℝ, x = (r : EReal) := by
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- Under the precondition every entry of the probability map is a real number. -/
theorem finite_of_pre (x0 : FVec Ideal Cert.Pre_finite_inputs.S4x256x256 .f32) (x1 : IVec Cert.Pre_finite_inputs.S4x512x2 32)
    (h : Cert.Pre_finite_inputs.fn (F := Ideal) x0 x1 = fun _ => 1#1) (b : Fin 4) (hh w : Fin 256) :
    ∃ r : ℝ, pOf x0 b hh w = (r : EReal) := by
  -- the scalar shape has a single index
  haveI : Subsingleton Cert.Pre_finite_inputs.S_.Idx := ⟨fun _ _ => funext fun d => d.elim0⟩
  -- the conjunction over all entries is true at its one index
  have h0 := congrFun h ValueIdx.ix0
  dsimp only [Cert.Pre_finite_inputs.fn] at h0
  -- hence the comparison at entry (b, hh, w) is true
  have e := Host.reduce_andi_all _ _ _ _ _ h0 (ValueIdx.ix3 b hh w)
  -- which says: the absolute value of the entry is strictly below the word read as +∞
  have e' : Ideal.cmp .olt (max (pOf x0 b hh w) (-(pOf x0 b hh w))) (Ideal.ofBits .f32 0x7F800000#32) = 1#1 := e
  rw [top_eq] at e'
  exact real_of_abs_lt_top _ (lt_of_cmp_olt e')

end Cert.Spec

end
-- ==== Proof.lean ====
/-
  A weighted Hausdorff-type score of a probability map against a set of points, computed two ways.

  For each of 4 images of 256 × 256 pixels, with weights `p` (the probability map) and 512 integer points:
    term 1 = (∑ over pixels of p · distance to the nearest point) / (∑ over pixels of p + ε),
    term 2 = the mean over the points of the least, over pixels, of M + p · (distance − M),
  and the result is the mean over the images of term 1 plus the mean over the images of term 2.

  The kernel walks each image in 32 tiles of 8 rows, keeping a running weighted sum, a running total weight
  and a running minimum per point between grid points; it takes the distance as the root of the sum of the
  squared coordinate differences. The reference works over the 65536 pixels of an image at once; it takes the
  squared distance expanded as |x|² + |y|² − 2⟨y, x⟩ and clamped at zero, and writes the weighted distance as
  (1 − p) · M + p · distance. Over the extended reals the two agree when every weight is a real number (the
  precondition): the expanded square is the sum of squares, which is nonnegative, so the clamp is idle; the two
  weighted distances differ by distributing a product over a difference of reals; and the tiled sums and minima
  are the whole ones regrouped.

  The modules: Spec (the common value and its two arrangements), Algebra (the three are one value), Finite (the
  precondition makes the weights real), RefValue (the reference's run is the flat arrangement), and for the
  kernel Pieces, Tile, Payload, TileValue, AccStep, Step, Blocks, Invariant, HostTail, KernelValue (its run is the
  tiled arrangement). The three frame claims are the generated frames and the reference's generated run; nothing
  was rewritten when the kernel was read at the exact instance, so that claim is trivial.
-/
import proofs.«167800_j19816979104533_2_alg».proof.Defs
import proofs.«167800_j19816979104533_2_alg».proof.Proof.Gen.Kernel
import proofs.«167800_j19816979104533_2_alg».proof.Proof.Gen.Kernel.Skeleton
import proofs.«167800_j19816979104533_2_alg».proof.Proof.Gen.Kernel.Launch
import proofs.«167800_j19816979104533_2_alg».proof.Proof.Gen.Kernel.Points
import proofs.«167800_j19816979104533_2_alg».proof.Proof.Gen.Kernel.Frame
import proofs.«167800_j19816979104533_2_alg».proof.Proof.Gen.KernelIdeal
import proofs.«167800_j19816979104533_2_alg».proof.Proof.Gen.KernelIdeal.Skeleton
import proofs.«167800_j19816979104533_2_alg».proof.Proof.Gen.KernelIdeal.Launch
import proofs.«167800_j19816979104533_2_alg».proof.Proof.Gen.KernelIdeal.Points
import proofs.«167800_j19816979104533_2_alg».proof.Proof.Gen.KernelIdeal.Frame
import proofs.«167800_j19816979104533_2_alg».proof.Proof.Gen.ReferenceIdeal
import proofs.«167800_j19816979104533_2_alg».proof.Proof.Gen.ReferenceIdeal.Run
import proofs.«167800_j19816979104533_2_alg».proof.Proof.Gen.ReferenceIdeal.Read
import proofs.«167800_j19816979104533_2_alg».proof.Proof.Gen.Pre_finite_inputs
import proofs.«167800_j19816979104533_2_alg».proof.Proof.KernelValue
import proofs.«167800_j19816979104533_2_alg».proof.Proof.RefValue
import proofs.«167800_j19816979104533_2_alg».proof.Proof.Algebra
import proofs.«167800_j19816979104533_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the exact instance. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel at the exact instance rewrote no operation. -/
theorem preserves : Cert.preserves_Kernel_KernelIdeal := trivial

/-- From memories agreeing on the arguments, with every weight finite, the kernel's result (the tiled
    arrangement) and the reference's (the flat arrangement) are the same extended real: each of the three
    per-image quantities is the plain pixel-by-pixel one in both arrangements. -/
theorem algebraic : Cert.algebraic_KernelIdeal_ReferenceIdeal := by
  intro m ρ m' ρ' hpre hagree
  refine ⟨fun c => fun _ => Cert.Spec.result (Cert.KernelIdeal.KValue.sw m c) (Cert.KernelIdeal.KValue.sp m c)
    (Cert.KernelIdeal.KValue.mn m c), Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v53_eq, Cert.ReferenceIdeal.RefValue.ref_eq, (hagree c).1, (hagree c).2]
  have hp := Cert.Spec.finite_of_pre _ _ (hpre c)
  have e1 : Cert.Spec.swR (Cert.Spec.pOf (m ((c.tc : Thread Cert.KernelIdeal.nD Cert.KernelIdeal.τ).loc Cert.KernelIdeal.main_arg0)))
      (Cert.Spec.gxOf (m ((c.tc : Thread Cert.KernelIdeal.nD Cert.KernelIdeal.τ).loc Cert.KernelIdeal.main_arg1)))
      (Cert.Spec.gyOf (m ((c.tc : Thread Cert.KernelIdeal.nD Cert.KernelIdeal.τ).loc Cert.KernelIdeal.main_arg1)))
      = Cert.KernelIdeal.KValue.sw m c :=
    funext fun b => (Cert.Spec.swR_eq _ _ _ b).trans (Cert.Spec.accSW_eq _ _ _ b).symm
  have e2 : Cert.Spec.spR (Cert.Spec.pOf (m ((c.tc : Thread Cert.KernelIdeal.nD Cert.KernelIdeal.τ).loc Cert.KernelIdeal.main_arg0)))
      = Cert.KernelIdeal.KValue.sp m c :=
    funext fun b => (Cert.Spec.spR_eq _ b).trans (Cert.Spec.accSP_eq _ b).symm
  have e3 : Cert.Spec.mnR (Cert.Spec.pOf (m ((c.tc : Thread Cert.KernelIdeal.nD Cert.KernelIdeal.τ).loc Cert.KernelIdeal.main_arg0)))
      (Cert.Spec.gxOf (m ((c.tc : Thread Cert.KernelIdeal.nD Cert.KernelIdeal.τ).loc Cert.KernelIdeal.main_arg1)))
      (Cert.Spec.gyOf (m ((c.tc : Thread Cert.KernelIdeal.nD Cert.KernelIdeal.τ).loc Cert.KernelIdeal.main_arg1)))
      = Cert.KernelIdeal.KValue.mn m c :=
    funext fun b => funext fun g => (Cert.Spec.mnR_eq _ _ _ hp b g).trans (Cert.Spec.accMN_eq _ _ _ b g).symm
  rw [e1, e2, e3]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
